-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x1, .i32⟩
  | .hbm, ⟨8, _⟩ => ⟨S1x4096, .i32⟩
  | .hbm, ⟨9, _⟩ => ⟨S4096x1024, .bf16⟩
  | .hbm, ⟨10, _⟩ => ⟨S4096x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4096x1024_S4096_d1 : S4096x1024.ReducesTo [1] S4096
  h_S_ : 0 < S_.numel
  shapeCasts_S4096_S4096x1 : S4096.ShapeCasts S4096x1
  shapeCasts_S4096_S1x4096 : S4096.ShapeCasts S1x4096
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  reducesTo_S4096x1_S_d0_1 : S4096x1.ReducesTo [0, 1] S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .i32 = 32 ∨ (Rect.block (s := S4096x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .i32 = 32 ∨ (Rect.block (s := S1x4096) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S_ : Shape := ⟨0, ![]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S1024x4096, .f32⟩
  | .hbm, ⟨6, _⟩ => ⟨S4096x4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x1, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096, .i32⟩
  | .hbm, ⟨27, _⟩ => ⟨S4096x1, .i32⟩
  | .hbm, ⟨28, _⟩ => ⟨S_, .i32⟩
  | .hbm, ⟨29, _⟩ => ⟨S4096x1, .i32⟩
  | .hbm, ⟨30, _⟩ => ⟨S4096x1, .i1⟩
  | .hbm, ⟨31, _⟩ => ⟨S4096, .i32⟩
  | .hbm, ⟨32, _⟩ => ⟨S1x4096, .i32⟩
  | .hbm, ⟨33, _⟩ => ⟨S_, .i32⟩
  | .hbm, ⟨34, _⟩ => ⟨S1x4096, .i32⟩
  | .hbm, ⟨35, _⟩ => ⟨S1x4096, .i1⟩
  | .hbm, ⟨36, _⟩ => ⟨S4096x4096, .i1⟩
  | .hbm, ⟨37, _⟩ => ⟨S4096x4096, .i1⟩
  | .hbm, ⟨38, _⟩ => ⟨S4096x4096, .i1⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S_S4096x1 : S_.BroadcastsInDim S4096x1 (![] : Fin 0 → Fin S4096x1.rank)
  bcast_S_S1x4096 : S_.BroadcastsInDim S1x4096 (![] : Fin 0 → Fin S1x4096.rank)
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KBBodyA.lean ====
/-
  The kernel body, run once per case of its one branch.

  The body first asks whether the column-block coordinate j is 0. If it is, it overwrites the output
  block with zeros. It then loads the two row blocks of the matrix, the two blocks of squared
  lengths and the two blocks of labels, reloads the output block, and stores
  (output block) + (lane sums of the masked signed squared distances) back over the whole block.
  So at j = 0 the block ends as the payload of zeros pushed through one accumulation step,
  and at j > 0 as what the point before left pushed through one accumulation step.
  Below, each case's run is stated as: "the list of pieces the output buffer ends written with",
  found by running the body symbolically, together with the run itself.
-/
import proofs.«109835_j10763188043951_2_alg».proof.Proof.Gen.Kernel.Launch
import proofs.«109835_j10763188043951_2_alg».proof.Proof.Gen.Kernel.Skeleton
import proofs.«109835_j10763188043951_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "The column-block coordinate is 0", as the body's scalar chain spells it. -/
abbrev condJ0 (i : grid0.Coords) : Prop :=
  (Scalar.cmpi .ne (Scalar.extui (Scalar.cmpi .eq (BitVec.ofNat 32 (i 1).val) 0#32)) 0#32) = 1#1

/-- On the 4 x 4 grid, walked row-major, the column-block coordinate is 0 exactly at the points divisible by 4. -/
theorem hcondJ0 : ∀ t : Fin cfg0.N, condJ0 (grid0.coords t) ↔ t.val % 4 = 0 :=
  (by decide +kernel : ∀ t : Fin grid0.N, condJ0 (grid0.coords t) ↔ t.val % 4 = 0)

set_option maxHeartbeats 2000000 in
/-- The body at a point with j = 0: whatever the output buffer held, it ends written with the found pieces. -/
noncomputable def kernelRunA (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .i32) (harg6 : arg6.IsWhole) (arg7 : Memref sig .tc .vmem S1x1024 .i32) (harg7 : arg7.IsWhole)
    (arg8 : Memref sig .tc .vmem S1024x1 .f32) (harg8 : arg8.IsWhole) (hc : condJ0 i)
    (x2 x3 : Vec F S1024x1024 .bf16) (x4 : Vec F S1024x1 .f32) (x5 : Vec F S1x1024 .f32) (x6 : Vec F S1024x1 .i32) (x7 : Vec F S1x1024 .i32) :
    { L : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ d, owns (c : Thread nD τ) arg8 fullShare d)
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun E K => ?run⟩
  case run =>
    simp only [cc0__kernel_eq_skeleton]; unfold cc0__kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.Kernel.Hand

end
-- ==== Proof.KBBodyB.lean ====
/-
  The kernel body at a point whose column-block coordinate j is not 0: nothing is reset, the output block is
  reloaded at what the point before left in it, and one accumulation step is stored over the whole block.
-/
import proofs.«109835_j10763188043951_2_alg».proof.Proof.KBBodyA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body at a point with j ≠ 0, the output buffer handed in at contents `xo`: it ends written with the found pieces. -/
noncomputable def kernelRunB (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .i32) (harg6 : arg6.IsWhole) (arg7 : Memref sig .tc .vmem S1x1024 .i32) (harg7 : arg7.IsWhole)
    (arg8 : Memref sig .tc .vmem S1024x1 .f32) (harg8 : arg8.IsWhole) (hc : ¬ condJ0 i)
    (x2 x3 : Vec F S1024x1024 .bf16) (x4 : Vec F S1024x1 .f32) (x5 : Vec F S1x1024 .f32) (x6 : Vec F S1024x1 .i32) (x7 : Vec F S1x1024 .i32)
    (xo : Vec F S1024x1 .f32) :
    { L : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare xo
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun E K => ?run⟩
  case run =>
    simp only [cc0__kernel_eq_skeleton]; unfold cc0__kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.Kernel.Hand

end
-- ==== Proof.KBDat.lean ====
/-
  The proof data of the kernel call and the body obligation, at a parameter V: the contents of the core's
  buffers when the call is entered.

  After the body at grid point t, each input window's staging buffer holds that window's block of its array, and
  the output window's holds `outsAt t`: at a point with column-block coordinate 0 what the reset case leaves,
  at any other point what the accumulating case leaves from what the point before left. The output block is
  written back only after the last column block, so between those points the buffer keeps its contents.
  The matrix is handed to two windows; each holds half of the share of its array.
-/
import proofs.«109835_j10763188043951_2_alg».proof.Proof.KBBodyB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the array at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every point, fetched there or not. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every point, fetched there or not. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every point, fetched there or not. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block of the array at every point, fetched there or not. -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block of the array at every point, fetched there or not. -/
theorem before_in5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)

/-- One staging buffer of the output window, through which its contents are stated (the choice does not matter). -/
abbrev VO : View sig .tc .vmem S1024x1 .f32 := (Memref.whole cc0_stg6_0 : Memref sig .tc .vmem S1024x1 .f32).view

/-- The reset case's pieces tile the output block, so they cover it. -/
theorem coverA (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (hc : condJ0 i) (x2 x3 : Vec F S1024x1024 .bf16) (x4 : Vec F S1024x1 .f32) (x5 : Vec F S1x1024 .f32) (x6 : Vec F S1024x1 .i32) (x7 : Vec F S1x1024 .i32) (y : S1024x1.Idx) :
    ∃ pc ∈ (kernelRunA (F := F) c i arg2 harg2 arg3 harg3 arg4 harg4 arg5 harg5 arg6 harg6 arg7 harg7 arg8 harg8 hc x2 x3 x4 x5 x6 x7).1, y ∈ pc.1.set :=
  View.cover_of_tiledL (kernelRunA (F := F) c i arg2 harg2 arg3 harg3 arg4 harg4 arg5 harg5 arg6 harg6 arg7 harg7 arg8 harg8 hc x2 x3 x4 x5 x6 x7).1 S1024x1.size (by sl_kernel_rfl) y

/-- What the reset case leaves in the output buffer: its pieces read back. -/
def outA (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (hc : condJ0 i) (x2 x3 : Vec F S1024x1024 .bf16) (x4 : Vec F S1024x1 .f32) (x5 : Vec F S1x1024 .f32) (x6 : Vec F S1024x1 .i32) (x7 : Vec F S1x1024 .i32) : Vec F S1024x1 .f32 :=
  VO.read (Elt F) (VO.writes (Elt F) VO.junk (kernelRunA (F := F) c i arg2 harg2 arg3 harg3 arg4 harg4 arg5 harg5 arg6 harg6 arg7 harg7 arg8 harg8 hc x2 x3 x4 x5 x6 x7).1)

/-- The accumulating case's pieces tile the output block, so they cover it. -/
theorem coverB (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (hc : ¬ condJ0 i) (x2 x3 : Vec F S1024x1024 .bf16) (x4 : Vec F S1024x1 .f32) (x5 : Vec F S1x1024 .f32) (x6 : Vec F S1024x1 .i32) (x7 : Vec F S1x1024 .i32) (xo : Vec F S1024x1 .f32) (y : S1024x1.Idx) :
    ∃ pc ∈ (kernelRunB (F := F) c i arg2 harg2 arg3 harg3 arg4 harg4 arg5 harg5 arg6 harg6 arg7 harg7 arg8 harg8 hc x2 x3 x4 x5 x6 x7 xo).1, y ∈ pc.1.set :=
  View.cover_of_tiledL (kernelRunB (F := F) c i arg2 harg2 arg3 harg3 arg4 harg4 arg5 harg5 arg6 harg6 arg7 harg7 arg8 harg8 hc x2 x3 x4 x5 x6 x7 xo).1 S1024x1.size (by sl_kernel_rfl) y

/-- What the accumulating case leaves in the output buffer from the contents `xo` it was handed. -/
def outB (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (hc : ¬ condJ0 i) (x2 x3 : Vec F S1024x1024 .bf16) (x4 : Vec F S1024x1 .f32) (x5 : Vec F S1x1024 .f32) (x6 : Vec F S1024x1 .i32) (x7 : Vec F S1x1024 .i32) (xo : Vec F S1024x1 .f32) : Vec F S1024x1 .f32 :=
  VO.read (Elt F) (VO.writes (Elt F) VO.junk (kernelRunB (F := F) c i arg2 harg2 arg3 harg3 arg4 harg4 arg5 harg5 arg6 harg6 arg7 harg7 arg8 harg8 hc x2 x3 x4 x5 x6 x7 xo).1)

/-- The reset case at point `t`, on the point's memrefs and input blocks. -/
def outPA (c : Dev nD) (t : Fin cfg0.N) (hc : condJ0 (grid0.coords t)) : Vec F S1024x1 .f32 :=
  outA c (grid0.coords t) (ms0 t) (hs0 t) (ms1 t) (hs1 t) (ms2 t) (hs2 t) (ms3 t) (hs3 t) (ms4 t) (hs4 t) (ms5 t) (hs5 t) (ms6 t) (hs6 t) hc (iblk V c 0 t) (iblk V c 1 t) (iblk V c 2 t) (iblk V c 3 t) (iblk V c 4 t) (iblk V c 5 t)

/-- The accumulating case at point `t`, on the point's memrefs and input blocks, from `xo`. -/
def outPB (c : Dev nD) (t : Fin cfg0.N) (hc : ¬ condJ0 (grid0.coords t)) (xo : Vec F S1024x1 .f32) : Vec F S1024x1 .f32 :=
  outB c (grid0.coords t) (ms0 t) (hs0 t) (ms1 t) (hs1 t) (ms2 t) (hs2 t) (ms3 t) (hs3 t) (ms4 t) (hs4 t) (ms5 t) (hs5 t) (ms6 t) (hs6 t) hc (iblk V c 0 t) (iblk V c 1 t) (iblk V c 2 t) (iblk V c 3 t) (iblk V c 4 t) (iblk V c 5 t) xo

/-- THE ACCUMULATION: what the output window's staging buffer holds after the body at position `n`. -/
def outsAt (c : Dev nD) : (n : ℕ) → n < cfg0.N → Vec F S1024x1 .f32
  | 0, hn => outPA V c ⟨0, hn⟩ ((hcondJ0 ⟨0, hn⟩).mpr (Nat.zero_mod _))
  | n + 1, hn =>
    if h0 : (n + 1) % 4 = 0 then outPA V c ⟨n + 1, hn⟩ ((hcondJ0 ⟨n + 1, hn⟩).mpr h0)
    else outPB V c ⟨n + 1, hn⟩ (fun h => h0 ((hcondJ0 ⟨n + 1, hn⟩).mp h)) (outsAt c n (Nat.lt_of_succ_lt hn))

/-- At a point with column-block coordinate 0: the reset case. -/
theorem outsAt_A (c : Dev nD) (t : Fin cfg0.N) (h0 : t.val % 4 = 0) :
    outsAt V c t.val t.isLt = outPA V c t ((hcondJ0 t).mpr h0) := by
  obtain ⟨n, hn⟩ := t
  cases n with
  | zero => exact rfl
  | succ n => exact (dif_pos h0).trans rfl

/-- At any other point: the accumulating case over what the point before left. -/
theorem outsAt_B (c : Dev nD) (t : Fin cfg0.N) (h0 : ¬ t.val % 4 = 0) :
    outsAt V c t.val t.isLt = outPB V c t (fun h => h0 ((hcondJ0 t).mp h)) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the call on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outsAt V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) : (dat0 V c).after 5 t = iblk V c 5 t := by dsimp only [dat0]
theorem after6 (c : Dev nD) (t : Fin cfg0.N) : (dat0 V c).after 6 t = outsAt V c t.val t.isLt := by dsimp only [dat0]

theorem before0 (c : Dev nD) (t : Fin cfg0.N) (d) : (dat0 V c).before 0 t d = iblk V c 0 t :=
  before_in0 V (dat0 V c) (A_eq V c 0) (after0 V c) t d
theorem before1 (c : Dev nD) (t : Fin cfg0.N) (d) : (dat0 V c).before 1 t d = iblk V c 1 t :=
  before_in1 V (dat0 V c) (A_eq V c 1) (after1 V c) t d
theorem before2 (c : Dev nD) (t : Fin cfg0.N) (d) : (dat0 V c).before 2 t d = iblk V c 2 t :=
  before_in2 V (dat0 V c) (A_eq V c 2) (after2 V c) t d
theorem before3 (c : Dev nD) (t : Fin cfg0.N) (d) : (dat0 V c).before 3 t d = iblk V c 3 t :=
  before_in3 V (dat0 V c) (A_eq V c 3) (after3 V c) t d
theorem before4 (c : Dev nD) (t : Fin cfg0.N) (d) : (dat0 V c).before 4 t d = iblk V c 4 t :=
  before_in4 V (dat0 V c) (A_eq V c 4) (after4 V c) t d
theorem before5 (c : Dev nD) (t : Fin cfg0.N) (d) : (dat0 V c).before 5 t d = iblk V c 5 t :=
  before_in5 V (dat0 V c) (A_eq V c 5) (after5 V c) t d

/-- At a point with column-block coordinate not 0 the output buffer holds what the body left at the point before:
    the buffer is written back only after the last column block. -/
theorem before6_B (c : Dev nD) (t : Fin cfg0.N) (h0 : ¬ t.val % 4 = 0) (d) :
    (dat0 V c).before 6 t d = outsAt V c (t.val - 1) (Nat.lt_of_le_of_lt (Nat.sub_le _ _) t.isLt) := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dat0]

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point: the inputs' memrefs hold their blocks; the closed form says which case the point is in. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat0 V c).Φ t.succ = (dat0 V c).Φ t.castSucc from rfl,
    show (dat0 V c).owesAt () t.succ = (dat0 V c).owesAt () t.castSucc from rfl,
    after0, after1, after2, after3, after4, after5, after6]
  by_cases h0 : t.val % 4 = 0
  · rw [outsAt_A V c t h0]
    unfold outPA outA
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ ((hcondJ0 t).mpr h0) (iblk V c 0 t) (iblk V c 1 t) (iblk V c 2 t) (iblk V c 3 t) (iblk V c 4 t) (iblk V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverA c _ _ _ _ _ _ _ _ _ _ _ _ _ _ _ _ _ _ _ _ _ _)
  · rw [outsAt_B V c t h0]
    simp only [before6_B V c t h0]
    unfold outPB outB
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ (fun h => h0 ((hcondJ0 t).mp h)) (iblk V c 0 t) (iblk V c 1 t) (iblk V c 2 t) (iblk V c 3 t) (iblk V c 4 t) (iblk V c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB c _ _ _ _ _ _ _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Region

end Cert.Kernel.Hand

end
-- ==== Proof.KBBound.lean ====
/-
  The contents of the core's buffers at the four boundaries of the program: as launched; after the first stretch of
  host operations (the call's entry); after the call, where only the call's result array has changed, to what the
  write-backs of its blocks leave; after the last stretch of host operations.
-/
import proofs.«109835_j10763188043951_2_alg».proof.Proof.KBDat
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations: the call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the call's exit: the result array at what the write-backs leave, every other buffer as entered. -/
def W2 (c : Dev nD) : Valuation τ sig (Elt F) := fun b =>
  if h : Proc.devRef .tc main_v7 = b then
    cast (congrArg (fun b' : DevRef τ sig => b'.ty.Contents (Elt F)) h) ((dat0 (V1 m ρ) c).arrAt 6 cfg0.N)
  else W1 m ρ c b
theorem W2_out (c : Dev nD) : W2 m ρ c (Proc.devRef .tc main_v7) = (dat0 (V1 m ρ) c).arrAt 6 cfg0.N := by
  unfold W2; rw [dif_pos rfl]; rfl
theorem W2_of_ne (c : Dev nD) (b : Ref sig .tc) (hb : main_v7 ≠ b) :
    W2 m ρ c (Proc.devRef .tc b) = W1 m ρ c (Proc.devRef .tc b) := by
  unfold W2; rw [dif_neg]; intro e; exact hb (Proc.devRef_injective _ e)
abbrev V2 : (c : Dev nD) → (b : Ref sig .tc) → Buf (Elt F) ((c : Thread nD τ).loc b) := fun c b => W2 m ρ c b
/-- After the last stretch of host operations. -/
abbrev W3 : Dev nD → Valuation τ sig (Elt F) := fun c => StableHlo.after hostOps1 (W2 m ρ c)

end Cert.Kernel.Hand

end
-- ==== Proof.KBShared.lean ====
/-
  One array behind two windows: handing out and taking back the halves of its share.

  The kernel call reads the matrix through two input windows, so the matrix's buffer stands behind both.
  At its entry the call is handed each DISTINCT buffer behind its windows, whole and at the full share; the
  pipeline wants, window by window, the window's array at the share that window holds. For the five other
  windows the two agree: one buffer, one window, the full share. For the matrix the full share is cut into
  its left and right halves, and windows 0 and 1 take one half each; at the exit the two halves, which hold
  the same contents, are put together into the full share again.

  Writing m for the matrix's buffer and R for the other five buffers, each whole at the full share
  (the row sums of squares as a column and as a row, the labels as a column and as a row, the result):

    the distinct buffers:      m{full}           ∗ R
    the windows' arrays:       m{left} ∗ m{right} ∗ R

  The only rule used is that a points-to at a share q is the two points-tos at q's halves, together
  with the associativity of ∗.
-/
import proofs.«109835_j10763188043951_2_alg».proof.Proof.Gen.Kernel.Launch
import Idealize.ShloMosaic.Lib.Pipeline.Kit
import Idealize.ShloMosaic.Lib.Pipeline.Launch

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

/-- The distinct buffers behind the seven windows are six: the matrix (windows 0 and 1), then one for each
    of windows 2 to 6. Held whole at the full share, one after the other. -/
theorem arrBufs_chain (c : Dev nD) (V : (b : Ref sig .tc) → Buf (Elt F) ((c : Thread nD τ).loc b)) :
    (Pipeline.arrBufs spec0 c V : sProp 𝕄)
      = iprop((((c : Thread nD τ).loc main_v6) ↦{fullShare} V main_v6) ∗ (((c : Thread nD τ).loc main_v2) ↦{fullShare} V main_v2)
          ∗ (((c : Thread nD τ).loc main_v3) ↦{fullShare} V main_v3) ∗ (((c : Thread nD τ).loc main_v4) ↦{fullShare} V main_v4)
          ∗ (((c : Thread nD τ).loc main_v5) ↦{fullShare} V main_v5) ∗ (((c : Thread nD τ).loc main_v7) ↦{fullShare} V main_v7)) := by
  unfold Pipeline.arrBufs
  -- the set of the windows' buffers is the set of these six, listed without repetition
  exact bigSep_eq_bigSepL_of_eq [main_v6, main_v2, main_v3, main_v4, main_v5, main_v7] (by decide) (by decide) _

/-- An input window holds its array at its own share. -/
theorem share_in {c : Dev nD} (dat : Dat τ (Elt F) Unit ℕ (UR sig nD τ) ℕ cfg0 c) (w : Fin cfg0.W)
    (h : (cfg0.win w).isOut = false) : dat.share w = dat.q w := by
  unfold Dat.share
  rw [h]
  exact if_neg Bool.false_ne_true

/-- The output window holds its array at the full share. -/
theorem share_out {c : Dev nD} (dat : Dat τ (Elt F) Unit ℕ (UR sig nD τ) ℕ cfg0 c) (w : Fin cfg0.W)
    (h : (cfg0.win w).isOut = true) : dat.share w = fullShare := by
  unfold Dat.share
  rw [h]
  exact if_pos rfl

/-- The windows' arrays, window by window, when windows 0 and 1 hold the left and the right half of the
    share and every other window the full share, and the contents G are the buffers' contents V: every
    array is a whole buffer, so each window's points-to is over all of the buffer's elements. -/
theorem arrays_chain (c : Dev nD) (dat : Dat τ (Elt F) Unit ℕ (UR sig nD τ) ℕ cfg0 c)
    (hq0 : dat.q 0 = fullShare.left) (hq1 : dat.q 1 = fullShare.right) (hq : ∀ w : Fin cfg0.W, w ≠ 0 → w ≠ 1 → dat.q w = fullShare)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (dat.arrays G : sProp 𝕄)
      = iprop((((c : Thread nD τ).loc main_v6) ↦{fullShare.left} V main_v6) ∗ (((c : Thread nD τ).loc main_v6) ↦{fullShare.right} V main_v6)
          ∗ (((c : Thread nD τ).loc main_v2) ↦{fullShare} V main_v2)
          ∗ (((c : Thread nD τ).loc main_v3) ↦{fullShare} V main_v3) ∗ (((c : Thread nD τ).loc main_v4) ↦{fullShare} V main_v4)
          ∗ (((c : Thread nD τ).loc main_v5) ↦{fullShare} V main_v5) ∗ (((c : Thread nD τ).loc main_v7) ↦{fullShare} V main_v7)) := by
  -- each window's share
  have h0 : dat.share 0 = fullShare.left := (share_in dat 0 rfl).trans hq0
  have h1 : dat.share 1 = fullShare.right := (share_in dat 1 rfl).trans hq1
  have h2 : dat.share 2 = fullShare := (share_in dat 2 rfl).trans (hq 2 (by decide) (by decide))
  have h3 : dat.share 3 = fullShare := (share_in dat 3 rfl).trans (hq 3 (by decide) (by decide))
  have h4 : dat.share 4 = fullShare := (share_in dat 4 rfl).trans (hq 4 (by decide) (by decide))
  have h5 : dat.share 5 = fullShare := (share_in dat 5 rfl).trans (hq 5 (by decide) (by decide))
  have h6 : dat.share 6 = fullShare := share_out dat 6 rfl
  -- every window's array is its whole buffer, at the buffer's contents
  have e : (dat.arrays G : sProp 𝕄) = bigSep Finset.univ fun w : Fin 7 =>
      (((c : Thread nD τ).loc (Pipeline.arrRef spec0 w)) ↦{dat.share w} V (Pipeline.arrRef spec0 w) : sProp 𝕄) := by
    unfold Dat.arrays
    exact bigSep_congr fun w _ => by rw [(arr_whole0 w).set_eq_univ, hG w]
  -- the seven windows one by one, each at its share
  rw [e, bigSep_W0, h0, h1, h2, h3, h4, h5, h6]

/-- ENTRY. The distinct buffers, each whole at the full share, give every window its array at its share:
    the matrix's full share is cut into its two halves, one for window 0 and one for window 1; the other
    five buffers go to their windows as they are. -/
theorem arrays_of_arrBufs (c : Dev nD) (dat : Dat τ (Elt F) Unit ℕ (UR sig nD τ) ℕ cfg0 c)
    (hq0 : dat.q 0 = fullShare.left) (hq1 : dat.q 1 = fullShare.right) (hq : ∀ w : Fin cfg0.W, w ≠ 0 → w ≠ 1 → dat.q w = fullShare)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs spec0 c V : sProp 𝕄) ⊢ dat.arrays G := by
  rw [arrBufs_chain c V, arrays_chain c dat hq0 hq1 hq V G hG]
  -- m{full} ∗ R  ⊢  (m{left} ∗ m{right}) ∗ R  ⊢  m{left} ∗ m{right} ∗ R
  exact (sep_mono_left (pointsTo_share (PosShare.mem_left_op_right fullShare)).1).trans sep_assoc.1

/-- EXIT. The windows' arrays, windows 0 and 1 holding the two halves of the matrix's share at the same
    contents, give back the distinct buffers, each whole at the full share: the two halves are joined. -/
theorem arrBufs_of_arrays (c : Dev nD) (dat : Dat τ (Elt F) Unit ℕ (UR sig nD τ) ℕ cfg0 c)
    (hq0 : dat.q 0 = fullShare.left) (hq1 : dat.q 1 = fullShare.right) (hq : ∀ w : Fin cfg0.W, w ≠ 0 → w ≠ 1 → dat.q w = fullShare)
    (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    dat.arrays G ⊢ (Pipeline.arrBufs spec0 c V' : sProp 𝕄) := by
  rw [arrBufs_chain c V', arrays_chain c dat hq0 hq1 hq V' G hG]
  -- m{left} ∗ m{right} ∗ R  ⊢  (m{left} ∗ m{right}) ∗ R  ⊢  m{full} ∗ R
  exact sep_assoc.2.trans (sep_mono_left (pointsTo_share (PosShare.mem_left_op_right fullShare)).2)

end Cert.Kernel.Hand

end
-- ==== Proof.KBRun.lean ====
/-
  The run of the whole program: its host operations before the kernel call, the call, and the host operations
  after it, composed in order.

  The contents of the core's buffers are followed from boundary to boundary: as launched; after the first
  stretch of host operations (squared lengths, the reshapes, the change of format); after the call, where only
  the call's result array has changed, to what the write-backs of its blocks leave; after the last stretch
  (the total and its scaling). The matrix in the narrow format is read by two windows of the call: at entry the
  full share of that array is split into two halves, one per window, and at exit the halves are joined again.
  Every weakly fair execution terminates without a fault, the final result is the last stretch's value, and the
  two argument arrays end as launched, since no host operation and no write-back touches them.
-/
import proofs.«109835_j10763188043951_2_alg».proof.Proof.KBBound
import proofs.«109835_j10763188043951_2_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the call's exit every window's array holds what the pipeline leaves: an input's array is never written. -/
theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq (V1 m ρ) c 0)).trans (W2_of_ne m ρ c _ (by decide)).symm
  | ⟨1, _⟩ => exact (((dat0 (V1 m ρ) c).arrAt_in 1 rfl _).trans (A_eq (V1 m ρ) c 1)).trans (W2_of_ne m ρ c _ (by decide)).symm
  | ⟨2, _⟩ => exact (((dat0 (V1 m ρ) c).arrAt_in 2 rfl _).trans (A_eq (V1 m ρ) c 2)).trans (W2_of_ne m ρ c _ (by decide)).symm
  | ⟨3, _⟩ => exact (((dat0 (V1 m ρ) c).arrAt_in 3 rfl _).trans (A_eq (V1 m ρ) c 3)).trans (W2_of_ne m ρ c _ (by decide)).symm
  | ⟨4, _⟩ => exact (((dat0 (V1 m ρ) c).arrAt_in 4 rfl _).trans (A_eq (V1 m ρ) c 4)).trans (W2_of_ne m ρ c _ (by decide)).symm
  | ⟨5, _⟩ => exact (((dat0 (V1 m ρ) c).arrAt_in 5 rfl _).trans (A_eq (V1 m ρ) c 5)).trans (W2_of_ne m ρ c _ (by decide)).symm
  | ⟨6, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨6, Finset.mem_univ _, e⟩)

/-! ## The arguments end as launched -/

theorem W3_of_not_written (c : Dev nD) (b : Ref sig .tc) (h7 : main_v7 ≠ b)
    (h1 : ∀ op ∈ (hostOps1 : List (HloOp τ sig (Elt F))), Proc.devRef .tc b ∉ op.writes)
    (h0 : ∀ op ∈ (hostOps0 : List (HloOp τ sig (Elt F))), Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ h1
    _ = W1 m ρ c (Proc.devRef .tc b) := W2_of_ne m ρ c b h7
    _ = W0 m ρ c (Proc.devRef .tc b) := StableHlo.after_of_forall_not_mem (b := Proc.devRef .tc b) _ _ h0
    _ = m ((c : Thread nD τ).loc b) := rfl

theorem W3_main_arg0 (c : Dev nD) : W3 m ρ c (Proc.devRef .tc main_arg0) = m ((c : Thread nD τ).loc main_arg0) :=
  W3_of_not_written m ρ c main_arg0 (by decide)
    (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))
    (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))

theorem W3_main_arg1 (c : Dev nD) : W3 m ρ c (Proc.devRef .tc main_arg1) = m ((c : Thread nD τ).loc main_arg1) :=
  W3_of_not_written m ρ c main_arg1 (by decide)
    (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))
    (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The call as a segment -/

theorem q0 (c : Dev nD) : (pdats m ρ 0 c).q 0 = fullShare.left := rfl
theorem q1 (c : Dev nD) : (pdats m ρ 0 c).q 1 = fullShare.right := rfl
theorem qrest (c : Dev nD) : ∀ w : Fin cfg0.W, w ≠ 0 → w ≠ 1 → (pdats m ρ 0 c).q w = fullShare := fun w h0 h1 => by
  match w with
  | ⟨0, _⟩ => exact absurd rfl h0
  | ⟨1, _⟩ => exact absurd rfl h1
  | ⟨2, _⟩ => rfl
  | ⟨3, _⟩ => rfl
  | ⟨4, _⟩ => rfl
  | ⟨5, _⟩ => rfl
  | ⟨6, _⟩ => rfl

set_option backward.isDefEq.respectTransparency.types false in
/-- The call over the thread state: entered from every unscoped buffer at the entry contents, left at the exit contents. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ (cfgs) (0 : Fin 1) winFacts₀0.arr_unscoped c (V1 m ρ c)]
      exact sep_mono (arrays_of_arrBufs c (pdats m ρ 0 c) (q0 m ρ c) (q1 m ρ c) (qrest m ρ c) (V1 m ρ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [Pipeline.unscopedBufs_split₀ (cfgs) (0 : Fin 1) winFacts₀0.arr_unscoped c (V2 m ρ c)]
      refine sep_mono (arrBufs_of_arrays c (pdats m ρ 0 c) (q0 m ρ c) (q1 m ρ c) (qrest m ρ c) (V2 m ρ c) _ (hF0 m ρ c)) (Entails.of_eq ?_)
      unfold Pipeline.unscopedRest
      exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The same, read at the result and at the two arguments. -/
theorem run_main : θ_run defs (onTc (τ := τ) (main (F := F))) ⟨m, fun _ => 0, ρ⟩ (fun r => ∀ c : Dev nD,
      r.2.mem ((c.tc : Thread nD τ).loc main_v9) = W3 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v9 (by decide)),
     (h c _ (mem_uc main_arg0 (by decide))).trans (W3_main_arg0 m ρ c),
     (h c _ (mem_uc main_arg1 (by decide))).trans (W3_main_arg1 m ρ c)⟩) (run_all m ρ)

end Cert.Kernel.Hand

end
-- ==== Proof.KIBodyA.lean ====
/-
  The kernel body, run once per case of its one branch.

  The body first asks whether the column-block coordinate j is 0. If it is, it overwrites the output
  block with zeros. It then loads the two row blocks of the matrix, the two blocks of squared
  lengths and the two blocks of labels, reloads the output block, and stores
  (output block) + (lane sums of the masked signed squared distances) back over the whole block.
  So at j = 0 the block ends as the payload of zeros pushed through one accumulation step,
  and at j > 0 as what the point before left pushed through one accumulation step.
  Below, each case's run is stated as: "the list of pieces the output buffer ends written with",
  found by running the body symbolically, together with the run itself.
-/
import proofs.«109835_j10763188043951_2_alg».proof.Proof.Gen.KernelIdeal.Launch
import proofs.«109835_j10763188043951_2_alg».proof.Proof.Gen.KernelIdeal.Skeleton
import proofs.«109835_j10763188043951_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "The column-block coordinate is 0", as the body's scalar chain spells it. -/
abbrev condJ0 (i : grid0.Coords) : Prop :=
  (Scalar.cmpi .ne (Scalar.extui (Scalar.cmpi .eq (BitVec.ofNat 32 (i 1).val) 0#32)) 0#32) = 1#1

/-- On the 4 x 4 grid, walked row-major, the column-block coordinate is 0 exactly at the points divisible by 4. -/
theorem hcondJ0 : ∀ t : Fin cfg0.N, condJ0 (grid0.coords t) ↔ t.val % 4 = 0 :=
  (by decide +kernel : ∀ t : Fin grid0.N, condJ0 (grid0.coords t) ↔ t.val % 4 = 0)

set_option maxHeartbeats 2000000 in
/-- The body at a point with j = 0: whatever the output buffer held, it ends written with the found pieces. -/
noncomputable def kernelRunA (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .i32) (harg6 : arg6.IsWhole) (arg7 : Memref sig .tc .vmem S1x1024 .i32) (harg7 : arg7.IsWhole)
    (arg8 : Memref sig .tc .vmem S1024x1 .f32) (harg8 : arg8.IsWhole) (hc : condJ0 i)
    (x2 x3 : Vec F S1024x1024 .bf16) (x4 : Vec F S1024x1 .f32) (x5 : Vec F S1x1024 .f32) (x6 : Vec F S1024x1 .i32) (x7 : Vec F S1x1024 .i32) :
    { L : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ d, owns (c : Thread nD τ) arg8 fullShare d)
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun E K => ?run⟩
  case run =>
    simp only [cc0__kernel_eq_skeleton]; unfold cc0__kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Hand

end
-- ==== Proof.KIBodyB.lean ====
/-
  The kernel body at a point whose column-block coordinate j is not 0: nothing is reset, the output block is
  reloaded at what the point before left in it, and one accumulation step is stored over the whole block.
-/
import proofs.«109835_j10763188043951_2_alg».proof.Proof.KIBodyA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body at a point with j ≠ 0, the output buffer handed in at contents `xo`: it ends written with the found pieces. -/
noncomputable def kernelRunB (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .i32) (harg6 : arg6.IsWhole) (arg7 : Memref sig .tc .vmem S1x1024 .i32) (harg7 : arg7.IsWhole)
    (arg8 : Memref sig .tc .vmem S1024x1 .f32) (harg8 : arg8.IsWhole) (hc : ¬ condJ0 i)
    (x2 x3 : Vec F S1024x1024 .bf16) (x4 : Vec F S1024x1 .f32) (x5 : Vec F S1x1024 .f32) (x6 : Vec F S1024x1 .i32) (x7 : Vec F S1x1024 .i32)
    (xo : Vec F S1024x1 .f32) :
    { L : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare xo
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, fun E K => ?run⟩
  case run =>
    simp only [cc0__kernel_eq_skeleton]; unfold cc0__kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Hand

end
-- ==== Proof.KIDat.lean ====
/-
  The proof data of the kernel call and the body obligation, at a parameter V: the contents of the core's
  buffers when the call is entered.

  After the body at grid point t, each input window's staging buffer holds that window's block of its array, and
  the output window's holds `outsAt t`: at a point with column-block coordinate 0 what the reset case leaves,
  at any other point what the accumulating case leaves from what the point before left. The output block is
  written back only after the last column block, so between those points the buffer keeps its contents.
  The matrix is handed to two windows; each holds half of the share of its array.
-/
import proofs.«109835_j10763188043951_2_alg».proof.Proof.KIBodyB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the array at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every point, fetched there or not. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every point, fetched there or not. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every point, fetched there or not. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block of the array at every point, fetched there or not. -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block of the array at every point, fetched there or not. -/
theorem before_in5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)

/-- One staging buffer of the output window, through which its contents are stated (the choice does not matter). -/
abbrev VO : View sig .tc .vmem S1024x1 .f32 := (Memref.whole cc0_stg6_0 : Memref sig .tc .vmem S1024x1 .f32).view

/-- The reset case's pieces tile the output block, so they cover it. -/
theorem coverA (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (hc : condJ0 i) (x2 x3 : Vec F S1024x1024 .bf16) (x4 : Vec F S1024x1 .f32) (x5 : Vec F S1x1024 .f32) (x6 : Vec F S1024x1 .i32) (x7 : Vec F S1x1024 .i32) (y : S1024x1.Idx) :
    ∃ pc ∈ (kernelRunA (F := F) c i arg2 harg2 arg3 harg3 arg4 harg4 arg5 harg5 arg6 harg6 arg7 harg7 arg8 harg8 hc x2 x3 x4 x5 x6 x7).1, y ∈ pc.1.set :=
  View.cover_of_tiledL (kernelRunA (F := F) c i arg2 harg2 arg3 harg3 arg4 harg4 arg5 harg5 arg6 harg6 arg7 harg7 arg8 harg8 hc x2 x3 x4 x5 x6 x7).1 S1024x1.size (by sl_kernel_rfl) y

/-- What the reset case leaves in the output buffer: its pieces read back. -/
def outA (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (hc : condJ0 i) (x2 x3 : Vec F S1024x1024 .bf16) (x4 : Vec F S1024x1 .f32) (x5 : Vec F S1x1024 .f32) (x6 : Vec F S1024x1 .i32) (x7 : Vec F S1x1024 .i32) : Vec F S1024x1 .f32 :=
  VO.read (Elt F) (VO.writes (Elt F) VO.junk (kernelRunA (F := F) c i arg2 harg2 arg3 harg3 arg4 harg4 arg5 harg5 arg6 harg6 arg7 harg7 arg8 harg8 hc x2 x3 x4 x5 x6 x7).1)

/-- The accumulating case's pieces tile the output block, so they cover it. -/
theorem coverB (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (hc : ¬ condJ0 i) (x2 x3 : Vec F S1024x1024 .bf16) (x4 : Vec F S1024x1 .f32) (x5 : Vec F S1x1024 .f32) (x6 : Vec F S1024x1 .i32) (x7 : Vec F S1x1024 .i32) (xo : Vec F S1024x1 .f32) (y : S1024x1.Idx) :
    ∃ pc ∈ (kernelRunB (F := F) c i arg2 harg2 arg3 harg3 arg4 harg4 arg5 harg5 arg6 harg6 arg7 harg7 arg8 harg8 hc x2 x3 x4 x5 x6 x7 xo).1, y ∈ pc.1.set :=
  View.cover_of_tiledL (kernelRunB (F := F) c i arg2 harg2 arg3 harg3 arg4 harg4 arg5 harg5 arg6 harg6 arg7 harg7 arg8 harg8 hc x2 x3 x4 x5 x6 x7 xo).1 S1024x1.size (by sl_kernel_rfl) y

/-- What the accumulating case leaves in the output buffer from the contents `xo` it was handed. -/
def outB (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (hc : ¬ condJ0 i) (x2 x3 : Vec F S1024x1024 .bf16) (x4 : Vec F S1024x1 .f32) (x5 : Vec F S1x1024 .f32) (x6 : Vec F S1024x1 .i32) (x7 : Vec F S1x1024 .i32) (xo : Vec F S1024x1 .f32) : Vec F S1024x1 .f32 :=
  VO.read (Elt F) (VO.writes (Elt F) VO.junk (kernelRunB (F := F) c i arg2 harg2 arg3 harg3 arg4 harg4 arg5 harg5 arg6 harg6 arg7 harg7 arg8 harg8 hc x2 x3 x4 x5 x6 x7 xo).1)

/-- The reset case at point `t`, on the point's memrefs and input blocks. -/
def outPA (c : Dev nD) (t : Fin cfg0.N) (hc : condJ0 (grid0.coords t)) : Vec F S1024x1 .f32 :=
  outA c (grid0.coords t) (ms0 t) (hs0 t) (ms1 t) (hs1 t) (ms2 t) (hs2 t) (ms3 t) (hs3 t) (ms4 t) (hs4 t) (ms5 t) (hs5 t) (ms6 t) (hs6 t) hc (iblk V c 0 t) (iblk V c 1 t) (iblk V c 2 t) (iblk V c 3 t) (iblk V c 4 t) (iblk V c 5 t)

/-- The accumulating case at point `t`, on the point's memrefs and input blocks, from `xo`. -/
def outPB (c : Dev nD) (t : Fin cfg0.N) (hc : ¬ condJ0 (grid0.coords t)) (xo : Vec F S1024x1 .f32) : Vec F S1024x1 .f32 :=
  outB c (grid0.coords t) (ms0 t) (hs0 t) (ms1 t) (hs1 t) (ms2 t) (hs2 t) (ms3 t) (hs3 t) (ms4 t) (hs4 t) (ms5 t) (hs5 t) (ms6 t) (hs6 t) hc (iblk V c 0 t) (iblk V c 1 t) (iblk V c 2 t) (iblk V c 3 t) (iblk V c 4 t) (iblk V c 5 t) xo

/-- THE ACCUMULATION: what the output window's staging buffer holds after the body at position `n`. -/
def outsAt (c : Dev nD) : (n : ℕ) → n < cfg0.N → Vec F S1024x1 .f32
  | 0, hn => outPA V c ⟨0, hn⟩ ((hcondJ0 ⟨0, hn⟩).mpr (Nat.zero_mod _))
  | n + 1, hn =>
    if h0 : (n + 1) % 4 = 0 then outPA V c ⟨n + 1, hn⟩ ((hcondJ0 ⟨n + 1, hn⟩).mpr h0)
    else outPB V c ⟨n + 1, hn⟩ (fun h => h0 ((hcondJ0 ⟨n + 1, hn⟩).mp h)) (outsAt c n (Nat.lt_of_succ_lt hn))

/-- At a point with column-block coordinate 0: the reset case. -/
theorem outsAt_A (c : Dev nD) (t : Fin cfg0.N) (h0 : t.val % 4 = 0) :
    outsAt V c t.val t.isLt = outPA V c t ((hcondJ0 t).mpr h0) := by
  obtain ⟨n, hn⟩ := t
  cases n with
  | zero => exact rfl
  | succ n => exact (dif_pos h0).trans rfl

/-- At any other point: the accumulating case over what the point before left. -/
theorem outsAt_B (c : Dev nD) (t : Fin cfg0.N) (h0 : ¬ t.val % 4 = 0) :
    outsAt V c t.val t.isLt = outPB V c t (fun h => h0 ((hcondJ0 t).mp h)) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the call on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outsAt V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) : (dat0 V c).after 5 t = iblk V c 5 t := by dsimp only [dat0]
theorem after6 (c : Dev nD) (t : Fin cfg0.N) : (dat0 V c).after 6 t = outsAt V c t.val t.isLt := by dsimp only [dat0]

theorem before0 (c : Dev nD) (t : Fin cfg0.N) (d) : (dat0 V c).before 0 t d = iblk V c 0 t :=
  before_in0 V (dat0 V c) (A_eq V c 0) (after0 V c) t d
theorem before1 (c : Dev nD) (t : Fin cfg0.N) (d) : (dat0 V c).before 1 t d = iblk V c 1 t :=
  before_in1 V (dat0 V c) (A_eq V c 1) (after1 V c) t d
theorem before2 (c : Dev nD) (t : Fin cfg0.N) (d) : (dat0 V c).before 2 t d = iblk V c 2 t :=
  before_in2 V (dat0 V c) (A_eq V c 2) (after2 V c) t d
theorem before3 (c : Dev nD) (t : Fin cfg0.N) (d) : (dat0 V c).before 3 t d = iblk V c 3 t :=
  before_in3 V (dat0 V c) (A_eq V c 3) (after3 V c) t d
theorem before4 (c : Dev nD) (t : Fin cfg0.N) (d) : (dat0 V c).before 4 t d = iblk V c 4 t :=
  before_in4 V (dat0 V c) (A_eq V c 4) (after4 V c) t d
theorem before5 (c : Dev nD) (t : Fin cfg0.N) (d) : (dat0 V c).before 5 t d = iblk V c 5 t :=
  before_in5 V (dat0 V c) (A_eq V c 5) (after5 V c) t d

/-- At a point with column-block coordinate not 0 the output buffer holds what the body left at the point before:
    the buffer is written back only after the last column block. -/
theorem before6_B (c : Dev nD) (t : Fin cfg0.N) (h0 : ¬ t.val % 4 = 0) (d) :
    (dat0 V c).before 6 t d = outsAt V c (t.val - 1) (Nat.lt_of_le_of_lt (Nat.sub_le _ _) t.isLt) := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dat0]

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point: the inputs' memrefs hold their blocks; the closed form says which case the point is in. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat0 V c).Φ t.succ = (dat0 V c).Φ t.castSucc from rfl,
    show (dat0 V c).owesAt () t.succ = (dat0 V c).owesAt () t.castSucc from rfl,
    after0, after1, after2, after3, after4, after5, after6]
  by_cases h0 : t.val % 4 = 0
  · rw [outsAt_A V c t h0]
    unfold outPA outA
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ ((hcondJ0 t).mpr h0) (iblk V c 0 t) (iblk V c 1 t) (iblk V c 2 t) (iblk V c 3 t) (iblk V c 4 t) (iblk V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverA c _ _ _ _ _ _ _ _ _ _ _ _ _ _ _ _ _ _ _ _ _ _)
  · rw [outsAt_B V c t h0]
    simp only [before6_B V c t h0]
    unfold outPB outB
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ (fun h => h0 ((hcondJ0 t).mp h)) (iblk V c 0 t) (iblk V c 1 t) (iblk V c 2 t) (iblk V c 3 t) (iblk V c 4 t) (iblk V c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB c _ _ _ _ _ _ _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Region

end Cert.KernelIdeal.Hand

end
-- ==== Proof.KIBound.lean ====
/-
  The contents of the core's buffers at the four boundaries of the program: as launched; after the first stretch of
  host operations (the call's entry); after the call, where only the call's result array has changed, to what the
  write-backs of its blocks leave; after the last stretch of host operations.
-/
import proofs.«109835_j10763188043951_2_alg».proof.Proof.KIDat
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations: the call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the call's exit: the result array at what the write-backs leave, every other buffer as entered. -/
def W2 (c : Dev nD) : Valuation τ sig (Elt F) := fun b =>
  if h : Proc.devRef .tc main_v7 = b then
    cast (congrArg (fun b' : DevRef τ sig => b'.ty.Contents (Elt F)) h) ((dat0 (V1 m ρ) c).arrAt 6 cfg0.N)
  else W1 m ρ c b
theorem W2_out (c : Dev nD) : W2 m ρ c (Proc.devRef .tc main_v7) = (dat0 (V1 m ρ) c).arrAt 6 cfg0.N := by
  unfold W2; rw [dif_pos rfl]; rfl
theorem W2_of_ne (c : Dev nD) (b : Ref sig .tc) (hb : main_v7 ≠ b) :
    W2 m ρ c (Proc.devRef .tc b) = W1 m ρ c (Proc.devRef .tc b) := by
  unfold W2; rw [dif_neg]; intro e; exact hb (Proc.devRef_injective _ e)
abbrev V2 : (c : Dev nD) → (b : Ref sig .tc) → Buf (Elt F) ((c : Thread nD τ).loc b) := fun c b => W2 m ρ c b
/-- After the last stretch of host operations. -/
abbrev W3 : Dev nD → Valuation τ sig (Elt F) := fun c => StableHlo.after hostOps1 (W2 m ρ c)

end Cert.KernelIdeal.Hand

end
-- ==== Proof.KIShared.lean ====
/-
  One array behind two windows: handing out and taking back the halves of its share.

  The kernel call reads the matrix through two input windows, so the matrix's buffer stands behind both.
  At its entry the call is handed each DISTINCT buffer behind its windows, whole and at the full share; the
  pipeline wants, window by window, the window's array at the share that window holds. For the five other
  windows the two agree: one buffer, one window, the full share. For the matrix the full share is cut into
  its left and right halves, and windows 0 and 1 take one half each; at the exit the two halves, which hold
  the same contents, are put together into the full share again.

  Writing m for the matrix's buffer and R for the other five buffers, each whole at the full share
  (the row sums of squares as a column and as a row, the labels as a column and as a row, the result):

    the distinct buffers:      m{full}           ∗ R
    the windows' arrays:       m{left} ∗ m{right} ∗ R

  The only rule used is that a points-to at a share q is the two points-tos at q's halves, together
  with the associativity of ∗.
-/
import proofs.«109835_j10763188043951_2_alg».proof.Proof.Gen.KernelIdeal.Launch
import Idealize.ShloMosaic.Lib.Pipeline.Kit
import Idealize.ShloMosaic.Lib.Pipeline.Launch

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-- The distinct buffers behind the seven windows are six: the matrix (windows 0 and 1), then one for each
    of windows 2 to 6. Held whole at the full share, one after the other. -/
theorem arrBufs_chain (c : Dev nD) (V : (b : Ref sig .tc) → Buf (Elt F) ((c : Thread nD τ).loc b)) :
    (Pipeline.arrBufs spec0 c V : sProp 𝕄)
      = iprop((((c : Thread nD τ).loc main_v6) ↦{fullShare} V main_v6) ∗ (((c : Thread nD τ).loc main_v2) ↦{fullShare} V main_v2)
          ∗ (((c : Thread nD τ).loc main_v3) ↦{fullShare} V main_v3) ∗ (((c : Thread nD τ).loc main_v4) ↦{fullShare} V main_v4)
          ∗ (((c : Thread nD τ).loc main_v5) ↦{fullShare} V main_v5) ∗ (((c : Thread nD τ).loc main_v7) ↦{fullShare} V main_v7)) := by
  unfold Pipeline.arrBufs
  -- the set of the windows' buffers is the set of these six, listed without repetition
  exact bigSep_eq_bigSepL_of_eq [main_v6, main_v2, main_v3, main_v4, main_v5, main_v7] (by decide) (by decide) _

/-- An input window holds its array at its own share. -/
theorem share_in {c : Dev nD} (dat : Dat τ (Elt F) Unit ℕ (UR sig nD τ) ℕ cfg0 c) (w : Fin cfg0.W)
    (h : (cfg0.win w).isOut = false) : dat.share w = dat.q w := by
  unfold Dat.share
  rw [h]
  exact if_neg Bool.false_ne_true

/-- The output window holds its array at the full share. -/
theorem share_out {c : Dev nD} (dat : Dat τ (Elt F) Unit ℕ (UR sig nD τ) ℕ cfg0 c) (w : Fin cfg0.W)
    (h : (cfg0.win w).isOut = true) : dat.share w = fullShare := by
  unfold Dat.share
  rw [h]
  exact if_pos rfl

/-- The windows' arrays, window by window, when windows 0 and 1 hold the left and the right half of the
    share and every other window the full share, and the contents G are the buffers' contents V: every
    array is a whole buffer, so each window's points-to is over all of the buffer's elements. -/
theorem arrays_chain (c : Dev nD) (dat : Dat τ (Elt F) Unit ℕ (UR sig nD τ) ℕ cfg0 c)
    (hq0 : dat.q 0 = fullShare.left) (hq1 : dat.q 1 = fullShare.right) (hq : ∀ w : Fin cfg0.W, w ≠ 0 → w ≠ 1 → dat.q w = fullShare)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (dat.arrays G : sProp 𝕄)
      = iprop((((c : Thread nD τ).loc main_v6) ↦{fullShare.left} V main_v6) ∗ (((c : Thread nD τ).loc main_v6) ↦{fullShare.right} V main_v6)
          ∗ (((c : Thread nD τ).loc main_v2) ↦{fullShare} V main_v2)
          ∗ (((c : Thread nD τ).loc main_v3) ↦{fullShare} V main_v3) ∗ (((c : Thread nD τ).loc main_v4) ↦{fullShare} V main_v4)
          ∗ (((c : Thread nD τ).loc main_v5) ↦{fullShare} V main_v5) ∗ (((c : Thread nD τ).loc main_v7) ↦{fullShare} V main_v7)) := by
  -- each window's share
  have h0 : dat.share 0 = fullShare.left := (share_in dat 0 rfl).trans hq0
  have h1 : dat.share 1 = fullShare.right := (share_in dat 1 rfl).trans hq1
  have h2 : dat.share 2 = fullShare := (share_in dat 2 rfl).trans (hq 2 (by decide) (by decide))
  have h3 : dat.share 3 = fullShare := (share_in dat 3 rfl).trans (hq 3 (by decide) (by decide))
  have h4 : dat.share 4 = fullShare := (share_in dat 4 rfl).trans (hq 4 (by decide) (by decide))
  have h5 : dat.share 5 = fullShare := (share_in dat 5 rfl).trans (hq 5 (by decide) (by decide))
  have h6 : dat.share 6 = fullShare := share_out dat 6 rfl
  -- every window's array is its whole buffer, at the buffer's contents
  have e : (dat.arrays G : sProp 𝕄) = bigSep Finset.univ fun w : Fin 7 =>
      (((c : Thread nD τ).loc (Pipeline.arrRef spec0 w)) ↦{dat.share w} V (Pipeline.arrRef spec0 w) : sProp 𝕄) := by
    unfold Dat.arrays
    exact bigSep_congr fun w _ => by rw [(arr_whole0 w).set_eq_univ, hG w]
  -- the seven windows one by one, each at its share
  rw [e, bigSep_W0, h0, h1, h2, h3, h4, h5, h6]

/-- ENTRY. The distinct buffers, each whole at the full share, give every window its array at its share:
    the matrix's full share is cut into its two halves, one for window 0 and one for window 1; the other
    five buffers go to their windows as they are. -/
theorem arrays_of_arrBufs (c : Dev nD) (dat : Dat τ (Elt F) Unit ℕ (UR sig nD τ) ℕ cfg0 c)
    (hq0 : dat.q 0 = fullShare.left) (hq1 : dat.q 1 = fullShare.right) (hq : ∀ w : Fin cfg0.W, w ≠ 0 → w ≠ 1 → dat.q w = fullShare)
    (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs spec0 c V : sProp 𝕄) ⊢ dat.arrays G := by
  rw [arrBufs_chain c V, arrays_chain c dat hq0 hq1 hq V G hG]
  -- m{full} ∗ R  ⊢  (m{left} ∗ m{right}) ∗ R  ⊢  m{left} ∗ m{right} ∗ R
  exact (sep_mono_left (pointsTo_share (PosShare.mem_left_op_right fullShare)).1).trans sep_assoc.1

/-- EXIT. The windows' arrays, windows 0 and 1 holding the two halves of the matrix's share at the same
    contents, give back the distinct buffers, each whole at the full share: the two halves are joined. -/
theorem arrBufs_of_arrays (c : Dev nD) (dat : Dat τ (Elt F) Unit ℕ (UR sig nD τ) ℕ cfg0 c)
    (hq0 : dat.q 0 = fullShare.left) (hq1 : dat.q 1 = fullShare.right) (hq : ∀ w : Fin cfg0.W, w ≠ 0 → w ≠ 1 → dat.q w = fullShare)
    (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    dat.arrays G ⊢ (Pipeline.arrBufs spec0 c V' : sProp 𝕄) := by
  rw [arrBufs_chain c V', arrays_chain c dat hq0 hq1 hq V' G hG]
  -- m{left} ∗ m{right} ∗ R  ⊢  (m{left} ∗ m{right}) ∗ R  ⊢  m{full} ∗ R
  exact sep_assoc.2.trans (sep_mono_left (pointsTo_share (PosShare.mem_left_op_right fullShare)).2)

end Cert.KernelIdeal.Hand

end
-- ==== Proof.KIRun.lean ====
/-
  The run of the whole program: its host operations before the kernel call, the call, and the host operations
  after it, composed in order.

  The contents of the core's buffers are followed from boundary to boundary: as launched; after the first
  stretch of host operations (squared lengths, the reshapes, the change of format); after the call, where only
  the call's result array has changed, to what the write-backs of its blocks leave; after the last stretch
  (the total and its scaling). The matrix in the narrow format is read by two windows of the call: at entry the
  full share of that array is split into two halves, one per window, and at exit the halves are joined again.
  Every weakly fair execution terminates without a fault, the final result is the last stretch's value, and the
  two argument arrays end as launched, since no host operation and no write-back touches them.
-/
import proofs.«109835_j10763188043951_2_alg».proof.Proof.KIBound
import proofs.«109835_j10763188043951_2_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the call's exit every window's array holds what the pipeline leaves: an input's array is never written. -/
theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq (V1 m ρ) c 0)).trans (W2_of_ne m ρ c _ (by decide)).symm
  | ⟨1, _⟩ => exact (((dat0 (V1 m ρ) c).arrAt_in 1 rfl _).trans (A_eq (V1 m ρ) c 1)).trans (W2_of_ne m ρ c _ (by decide)).symm
  | ⟨2, _⟩ => exact (((dat0 (V1 m ρ) c).arrAt_in 2 rfl _).trans (A_eq (V1 m ρ) c 2)).trans (W2_of_ne m ρ c _ (by decide)).symm
  | ⟨3, _⟩ => exact (((dat0 (V1 m ρ) c).arrAt_in 3 rfl _).trans (A_eq (V1 m ρ) c 3)).trans (W2_of_ne m ρ c _ (by decide)).symm
  | ⟨4, _⟩ => exact (((dat0 (V1 m ρ) c).arrAt_in 4 rfl _).trans (A_eq (V1 m ρ) c 4)).trans (W2_of_ne m ρ c _ (by decide)).symm
  | ⟨5, _⟩ => exact (((dat0 (V1 m ρ) c).arrAt_in 5 rfl _).trans (A_eq (V1 m ρ) c 5)).trans (W2_of_ne m ρ c _ (by decide)).symm
  | ⟨6, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨6, Finset.mem_univ _, e⟩)

/-! ## The arguments end as launched -/

theorem W3_of_not_written (c : Dev nD) (b : Ref sig .tc) (h7 : main_v7 ≠ b)
    (h1 : ∀ op ∈ (hostOps1 : List (HloOp τ sig (Elt F))), Proc.devRef .tc b ∉ op.writes)
    (h0 : ∀ op ∈ (hostOps0 : List (HloOp τ sig (Elt F))), Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ h1
    _ = W1 m ρ c (Proc.devRef .tc b) := W2_of_ne m ρ c b h7
    _ = W0 m ρ c (Proc.devRef .tc b) := StableHlo.after_of_forall_not_mem (b := Proc.devRef .tc b) _ _ h0
    _ = m ((c : Thread nD τ).loc b) := rfl

theorem W3_main_arg0 (c : Dev nD) : W3 m ρ c (Proc.devRef .tc main_arg0) = m ((c : Thread nD τ).loc main_arg0) :=
  W3_of_not_written m ρ c main_arg0 (by decide)
    (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))
    (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))

theorem W3_main_arg1 (c : Dev nD) : W3 m ρ c (Proc.devRef .tc main_arg1) = m ((c : Thread nD τ).loc main_arg1) :=
  W3_of_not_written m ρ c main_arg1 (by decide)
    (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne (by decide)))
    (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The call as a segment -/

theorem q0 (c : Dev nD) : (pdats m ρ 0 c).q 0 = fullShare.left := rfl
theorem q1 (c : Dev nD) : (pdats m ρ 0 c).q 1 = fullShare.right := rfl
theorem qrest (c : Dev nD) : ∀ w : Fin cfg0.W, w ≠ 0 → w ≠ 1 → (pdats m ρ 0 c).q w = fullShare := fun w h0 h1 => by
  match w with
  | ⟨0, _⟩ => exact absurd rfl h0
  | ⟨1, _⟩ => exact absurd rfl h1
  | ⟨2, _⟩ => rfl
  | ⟨3, _⟩ => rfl
  | ⟨4, _⟩ => rfl
  | ⟨5, _⟩ => rfl
  | ⟨6, _⟩ => rfl

set_option backward.isDefEq.respectTransparency.types false in
/-- The call over the thread state: entered from every unscoped buffer at the entry contents, left at the exit contents. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ (cfgs) (0 : Fin 1) winFacts₀0.arr_unscoped c (V1 m ρ c)]
      exact sep_mono (arrays_of_arrBufs c (pdats m ρ 0 c) (q0 m ρ c) (q1 m ρ c) (qrest m ρ c) (V1 m ρ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [Pipeline.unscopedBufs_split₀ (cfgs) (0 : Fin 1) winFacts₀0.arr_unscoped c (V2 m ρ c)]
      refine sep_mono (arrBufs_of_arrays c (pdats m ρ 0 c) (q0 m ρ c) (q1 m ρ c) (qrest m ρ c) (V2 m ρ c) _ (hF0 m ρ c)) (Entails.of_eq ?_)
      unfold Pipeline.unscopedRest
      exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The same, read at the result and at the two arguments. -/
theorem run_main : θ_run defs (onTc (τ := τ) (main (F := F))) ⟨m, fun _ => 0, ρ⟩ (fun r => ∀ c : Dev nD,
      r.2.mem ((c.tc : Thread nD τ).loc main_v9) = W3 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v9 (by decide)),
     (h c _ (mem_uc main_arg0 (by decide))).trans (W3_main_arg0 m ρ c),
     (h c _ (mem_uc main_arg1 (by decide))).trans (W3_main_arg1 m ρ c)⟩) (run_all m ρ)

end Cert.KernelIdeal.Hand

end
-- ==== Proof.KIPieces.lean ====
/-
  What each case of the kernel body leaves in the output buffer, as payload terms.

  The body loads every input block, and reloads and stores the output block, through the rectangle that is the
  whole block at zero offsets; through it a load reads the buffer's contents and one covering store leaves its
  payload. So the accumulating case leaves one accumulation step applied to what it was handed, and the
  reset case leaves one accumulation step applied to the block of zeros it first stores.
-/
import proofs.«109835_j10763188043951_2_alg».proof.Proof.KIDat
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The rectangle's offsets are zero. -/
theorem hz : (![0, 0] : Fin 2 → Nat) = fun _ => 0 := funext fun a => by fin_cases a <;> rfl

/-- The accumulating case: its one store covers the output block, and every load reads a whole buffer, so the
    block ends as one accumulation step applied to the contents it was handed. -/
theorem outB_eq (c : Dev nD) (i : grid0.Coords) (arg2 : Memref sig .tc .vmem S1024x1024 .bf16) (harg2 : arg2.IsWhole)
    (arg3 : Memref sig .tc .vmem S1024x1024 .bf16) (harg3 : arg3.IsWhole) (arg4 : Memref sig .tc .vmem S1024x1 .f32) (harg4 : arg4.IsWhole)
    (arg5 : Memref sig .tc .vmem S1x1024 .f32) (harg5 : arg5.IsWhole) (arg6 : Memref sig .tc .vmem S1024x1 .i32) (harg6 : arg6.IsWhole)
    (arg7 : Memref sig .tc .vmem S1x1024 .i32) (harg7 : arg7.IsWhole) (arg8 : Memref sig .tc .vmem S1024x1 .f32) (harg8 : arg8.IsWhole) (hc : ¬ condJ0 i)
    (x2 x3 : Vec F S1024x1024 .bf16) (x4 : Vec F S1024x1 .f32) (x5 : Vec F S1x1024 .f32) (x6 : Vec F S1024x1 .i32)
    (x7 : Vec F S1x1024 .i32) (xo : Vec F S1024x1 .f32) :
    outB c i arg2 harg2 arg3 harg3 arg4 harg4 arg5 harg5 arg6 harg6 arg7 harg7 arg8 harg8 hc x2 x3 x4 x5 x6 x7 xo
      = k0_pay1 (k0_pay3 x2 x3 x4 x5) (k0_pay4 x6 x7) (k0_pay5 i) (k0_pay6 i) 4094#32 xo := by
  unfold outB
  rw [View.read_writes_eq_canon _ _ _ (coverB c i arg2 harg2 arg3 harg3 arg4 harg4 arg5 harg5 arg6 harg6 arg7 harg7 arg8 harg8 hc x2 x3 x4 x5 x6 x7 xo)]
  unfold kernelRunB
  dsimp only
  sl_unfold_words
  rw [View.canon_unit_zero (S := S1024x1) hz]
  simp only [View.readAt_eq_ld, harg2.read_unread, harg3.read_unread, harg4.read_unread, harg5.read_unread,
    harg6.read_unread, harg7.read_unread, harg8.read_unread, View.ld_unit_zero (S := S1024x1024) hz,
    View.ld_unit_zero (S := S1024x1) hz, View.ld_unit_zero (S := S1x1024) hz]

/-- The reset case: the block is first stored with the zeros, the reload reads that store back, and the last
    store covers the block, so it ends as one accumulation step applied to the zeros. -/
theorem outA_eq (c : Dev nD) (i : grid0.Coords) (arg2 : Memref sig .tc .vmem S1024x1024 .bf16) (harg2 : arg2.IsWhole)
    (arg3 : Memref sig .tc .vmem S1024x1024 .bf16) (harg3 : arg3.IsWhole) (arg4 : Memref sig .tc .vmem S1024x1 .f32) (harg4 : arg4.IsWhole)
    (arg5 : Memref sig .tc .vmem S1x1024 .f32) (harg5 : arg5.IsWhole) (arg6 : Memref sig .tc .vmem S1024x1 .i32) (harg6 : arg6.IsWhole)
    (arg7 : Memref sig .tc .vmem S1x1024 .i32) (harg7 : arg7.IsWhole) (arg8 : Memref sig .tc .vmem S1024x1 .f32) (harg8 : arg8.IsWhole) (hc : condJ0 i)
    (x2 x3 : Vec F S1024x1024 .bf16) (x4 : Vec F S1024x1 .f32) (x5 : Vec F S1x1024 .f32) (x6 : Vec F S1024x1 .i32)
    (x7 : Vec F S1x1024 .i32) :
    outA c i arg2 harg2 arg3 harg3 arg4 harg4 arg5 harg5 arg6 harg6 arg7 harg7 arg8 harg8 hc x2 x3 x4 x5 x6 x7
      = k0_pay1 (k0_pay3 x2 x3 x4 x5) (k0_pay4 x6 x7) (k0_pay5 i) (k0_pay6 i) 4094#32 (k0_pay2 (F := F)) := by
  unfold outA
  rw [View.read_writes_eq_canon _ _ _ (coverA c i arg2 harg2 arg3 harg3 arg4 harg4 arg5 harg5 arg6 harg6 arg7 harg7 arg8 harg8 hc x2 x3 x4 x5 x6 x7)]
  unfold kernelRunA
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread,
    harg6.read_unread, harg7.read_unread, View.ld_unit_zero (S := S1024x1024) hz,
    View.ld_unit_zero (S := S1024x1) hz, View.ld_unit_zero (S := S1x1024) hz]

end Cert.KernelIdeal.Hand

end
-- ==== Proof.Spec.lean ====
/-
  The specification both programs are compared against, over the extended reals.

  For a matrix x of 4096 rows and 1024 columns and a vector l of 4096 integer labels:
    sq x i      = the sum over k of x(i,k)^2                 (the squared length of row i)
    gram x i j  = the sum over k of x(i,k) * x(j,k)          (the inner product of rows i and j)
    dist2 x i j = sq x i + sq x j - 2 * gram x i j           (the squared distance of rows i and j)
    sign l i j  = 1 if l i = l j, else -1
    term x l i j = sign l i j * dist2 x i j  if i <= 4094 and 1 <= j,  else 0
    total x l   = the sum over all i and all j of term x l i j
    result x l  = total x l * 2^-13
  The constants 2, 1, -1 and 2^-13 are kept as the binary32 words that denote them: both programs spell
  the same words, so their values are never needed.
-/
import Idealize.ShloMosaic.PureOps.Ideal
import Idealize.ShloMosaic.Lib.ValueIdx

noncomputable section

open scoped BigOperators

namespace Cert.Spec

open Idealize.ShloMosaic Idealize.ShloMosaic.ValueIdx

/-- A 4096 x 1024 matrix of extended reals, indexed as the programs index their first argument. -/
abbrev Mat : Type := (⟨2, ![4096, 1024]⟩ : Shape).Idx → EReal
/-- A vector of 4096 labels, 32-bit words. -/
abbrev Lab : Type := (⟨1, ![4096]⟩ : Shape).Idx → BitVec 32

/-- The words for 2, 1, -1 and 2^-13. -/
abbrev two : EReal := Ideal.ofBits .f32 0x40000000#32
abbrev one : EReal := Ideal.ofBits .f32 0x3F800000#32
abbrev negOne : EReal := Ideal.ofBits .f32 0xBF800000#32
abbrev par : EReal := Ideal.ofBits .f32 0x39000000#32

/-- The squared length of row i. -/
def sq (x : Mat) (i : Fin 4096) : EReal := ∑ k : Fin 1024, x (ix2 i k) * x (ix2 i k)
/-- The inner product of rows i and j. -/
def gram (x : Mat) (i j : Fin 4096) : EReal := ∑ k : Fin 1024, x (ix2 i k) * x (ix2 j k)
/-- The squared distance of rows i and j, as both programs spell it. -/
def dist2 (x : Mat) (i j : Fin 4096) : EReal := sq x i + sq x j - two * gram x i j
/-- +1 on equal labels, -1 otherwise. -/
def sign (l : Lab) (i j : Fin 4096) : EReal := if l (ix1 i) = l (ix1 j) then one else negOne
/-- One pair's contribution: rows up to 4094 against columns from 1. -/
def term (x : Mat) (l : Lab) (i j : Fin 4096) : EReal :=
  if i.val ≤ 4094 ∧ 1 ≤ j.val then sign l i j * dist2 x i j else 0
/-- The sum over all pairs. -/
def total (x : Mat) (l : Lab) : EReal := ∑ i : Fin 4096, ∑ j : Fin 4096, term x l i j
/-- The result: the total scaled by 2^-13. -/
def result (x : Mat) (l : Lab) : EReal := total x l * par

end Cert.Spec

end
-- ==== Proof.HostSide.lean ====
/-
  The host's operations around the kernel call, read one element at a time over the extended reals.

  Before the call the host computes, for each row r of x, the sum over k of x(r,k) * x(r,k): a
  sum over axis 1 started from the word for 0. It then views that vector of 4096 numbers as a column
  [4096,1] and as a row [1,4096] (the labels likewise), and converts x to a narrower float format,
  which over the extended reals changes nothing. After the call it adds up the [4096,1] result over
  both axes, again from the word for 0, and multiplies by the word for 2^-13.

  Each lemma says what one of these steps holds at an index:
    sqvec_apply   the row sums of squares are the specification's sq
    col_apply     the column view at (r, 0) is the vector at r
    row_apply     the row view at (0, r) is the vector at r
    bf16_apply    the format change is the identity
    tail_apply    the final scalar is (the sum over r of the result at (r, 0)) times 2^-13
-/
import proofs.«109835_j10763188043951_2_alg».proof.KernelIdeal
import proofs.«109835_j10763188043951_2_alg».proof.Proof.Spec
import Idealize.ShloMosaic.Lib.ValueIdx
import Idealize.ShloMosaic.Lib.Pipeline.Value
import Idealize.ShloMosaic.PureOps.Ideal.Laws

noncomputable section

open scoped BigOperators

namespace Cert.HostSide

open Idealize.ShloMosaic Idealize.ShloMosaic.ValueIdx Cert.KernelIdeal

/-- The host's sum over axis 1 of x * x, started from the word for 0, is at row r the sum over k of
    x(r,k) * x(r,k): the specification's squared length of row r. -/
theorem sqvec_apply (x : FVec Ideal S4096x1024 .f32) (h1 : S4096x1024.ReducesTo [1] S4096) (h2 : 0 < S_.numel)
    (r : Fin 4096) :
    Host.reduceAdd (F := Ideal) (mulf x x) (constant (F := Ideal) S_ .f32 0x00000000#32) h1 h2 (ix1 r)
      = Cert.Spec.sq x r := by
  -- over the extended reals the host's sum is: the initial value, plus the sum of the elements that reduce to r
  simp only [Host.reduceAdd, Ideal.hostReduceAdd_def]
  -- one axis is summed out, so those elements are the 1024 elements (r, k)
  rw [Ideal.hostReduceAdd_single h1 (by decide)]
  -- the initial value is the word for 0, which denotes 0
  rw [constant_apply, Ideal.ofBits_zero_f32, zero_add]
  unfold Cert.Spec.sq
  refine Finset.sum_congr rfl fun k _ => ?_
  -- the element of x * x at (r, k) is x(r,k) * x(r,k); the index over r with k on axis 1 is (r, k)
  rw [mulf_apply]
  have e : (show S4096x1024.Reduces [1] S4096 by decide).lift (ix1 r) k = ix2 r k :=
    funext fun a => Fin.ext (by match a with | ⟨0, _⟩ => rfl | ⟨1, _⟩ => rfl)
  exact congrArg (fun t => x t * x t) e

/-- A vector of 4096 elements viewed as a column: the element at (r, 0) is the vector's at r. -/
theorem col_apply {α : Type} (v : S4096.Idx → α) (h : S4096.ShapeCasts S4096x1) (r : Fin 4096) (z : Fin 1) :
    shapeCast S4096x1 v h (ix2 r z) = v (ix1 r) := by
  -- a reshape keeps the position in row-major order: (r, z) of [4096,1] is at r * 1 + z = r, as z = 0
  refine shapeCast_apply v h (ix2 r z) (ix1 r) ?_
  rw [Shape.rowMajor_val_one, Shape.rowMajor_val_two]
  show r.val = r.val * 1 + z.val
  have := z.isLt
  omega

/-- A vector of 4096 elements viewed as a row: the element at (0, r) is the vector's at r. -/
theorem row_apply {α : Type} (v : S4096.Idx → α) (h : S4096.ShapeCasts S1x4096) (z : Fin 1) (r : Fin 4096) :
    shapeCast S1x4096 v h (ix2 z r) = v (ix1 r) := by
  -- (z, r) of [1,4096] is at z * 4096 + r = r, as z = 0
  refine shapeCast_apply v h (ix2 z r) (ix1 r) ?_
  rw [Shape.rowMajor_val_one, Shape.rowMajor_val_two]
  show r.val = z.val * 4096 + r.val
  have := z.isLt
  omega

/-- Over the extended reals a change of float format is the identity. -/
theorem bf16_apply (x : FVec Ideal S4096x1024 .f32) (h : FTy.bits .bf16 < FTy.bits .f32) (j : S4096x1024.Idx) :
    truncf (F := Ideal) .bf16 x h j = x j :=
  truncf_apply x h j

/-- The host's last two steps: the sum of the [4096,1] result over both axes, started from the word for
    0, times the word for 2^-13, is (the sum over r of the result at (r, 0)) times 2^-13. -/
theorem tail_apply (y : FVec Ideal S4096x1 .f32) (h1 : S4096x1.ReducesTo [0, 1] S_) (h2 : 0 < S_.numel) (j : S_.Idx) :
    mulf (F := Ideal) (Host.reduceAdd (F := Ideal) y (constant (F := Ideal) S_ .f32 0x00000000#32) h1 h2)
        (constant (F := Ideal) S_ .f32 0x39000000#32) j
      = (∑ r : Fin 4096, y (ix2 r (0 : Fin 1))) * Cert.Spec.par := by
  -- the product at the one index is the product of the two factors there; the second is the word for 2^-13
  rw [mulf_apply, constant_apply]
  refine congrArg (· * Cert.Spec.par) ?_
  -- the sum into a scalar is the initial value plus the sum of every element of y
  simp only [Host.reduceAdd, Ideal.hostReduceAdd_def]
  rw [Ideal.hostReduceAdd_total h1 (fun b => b.elim0) y _ j]
  -- the initial value is the word for 0, which denotes 0
  rw [constant_apply, Ideal.ofBits_zero_f32, zero_add]
  -- every element: the sum over r of the sum over the one column index, which is the term at column 0
  rw [sum_idx2]
  exact Finset.sum_congr rfl fun r _ => Fin.sum_univ_one _

end Cert.HostSide

end
-- ==== Proof.KIEntry.lean ====
/-
  The buffers at the kernel call's entry and the program's final value, read one element at a time over
  the extended reals.

  Before the call the host writes five arrays the call reads:
    the matrix x in a narrower float format, which over the extended reals is x itself;
    the squared lengths of x's rows, once as a column [4096,1] and once as a row [1,4096];
    the labels, once as a column and once as a row.
  After the call it adds up the call's [4096,1] result and multiplies by the word for 2^-13.
  Each lemma states one of these at an index, in the specification's terms.
-/
import proofs.«109835_j10763188043951_2_alg».proof.Proof.KIBound
import proofs.«109835_j10763188043951_2_alg».proof.Proof.HostSide

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ) (ρ : Dev nD → PrngReg)

/-! ## The call's entry -/

/-- The matrix handed to the call is x converted to a narrower float format; over the extended reals the
    conversion changes nothing, so it is x. -/
theorem V1_v6 (c : Dev nD) (j : S4096x1024.Idx) :
    (V1 m ρ c main_v6 : S4096x1024.Idx → EReal) j = m ((c : Thread nD τ).loc main_arg0) j := by
  have e : (V1 m ρ c main_v6 : S4096x1024.Idx → EReal)
      = truncf (F := Ideal) .bf16 (m ((c : Thread nD τ).loc main_arg0) : FVec Ideal S4096x1024 .f32) bitsLt_bf16_f32 := by
    dsimp only [V1, W1, hostOps0]; after_results
  rw [e]
  exact Cert.HostSide.bf16_apply _ _ j

/-- The column of squared row lengths: at (r, 0) it is the sum over k of x(r,k) * x(r,k). -/
theorem V1_v2 (c : Dev nD) (r : Fin 4096) (z : Fin 1) :
    (V1 m ρ c main_v2 : S4096x1.Idx → EReal) (ix2 r z) = Cert.Spec.sq (m ((c : Thread nD τ).loc main_arg0)) r := by
  have e : (V1 m ρ c main_v2 : S4096x1.Idx → EReal)
      = shapeCast S4096x1 (Host.reduceAdd (F := Ideal)
          (mulf (m ((c : Thread nD τ).loc main_arg0) : FVec Ideal S4096x1024 .f32) (m ((c : Thread nD τ).loc main_arg0)))
          (constant (F := Ideal) S_ .f32 0x00000000#32) reducesTo_S4096x1024_S4096_d1 h_S_) shapeCasts_S4096_S4096x1 := by
    dsimp only [V1, W1, hostOps0]; after_results; rfl
  rw [e, Cert.HostSide.col_apply, Cert.HostSide.sqvec_apply]

/-- The row of squared row lengths: at (0, r) it is the sum over k of x(r,k) * x(r,k). -/
theorem V1_v3 (c : Dev nD) (z : Fin 1) (r : Fin 4096) :
    (V1 m ρ c main_v3 : S1x4096.Idx → EReal) (ix2 z r) = Cert.Spec.sq (m ((c : Thread nD τ).loc main_arg0)) r := by
  have e : (V1 m ρ c main_v3 : S1x4096.Idx → EReal)
      = shapeCast S1x4096 (Host.reduceAdd (F := Ideal)
          (mulf (m ((c : Thread nD τ).loc main_arg0) : FVec Ideal S4096x1024 .f32) (m ((c : Thread nD τ).loc main_arg0)))
          (constant (F := Ideal) S_ .f32 0x00000000#32) reducesTo_S4096x1024_S4096_d1 h_S_) shapeCasts_S4096_S1x4096 := by
    dsimp only [V1, W1, hostOps0]; after_results; rfl
  rw [e, Cert.HostSide.row_apply, Cert.HostSide.sqvec_apply]

/-- The column of labels: at (r, 0) it is the label of row r. -/
theorem V1_v4 (c : Dev nD) (r : Fin 4096) (z : Fin 1) :
    (V1 m ρ c main_v4 : S4096x1.Idx → BitVec 32) (ix2 r z) = m ((c : Thread nD τ).loc main_arg1) (ix1 r) := by
  have e : (V1 m ρ c main_v4 : S4096x1.Idx → BitVec 32)
      = shapeCast S4096x1 (m ((c : Thread nD τ).loc main_arg1) : S4096.Idx → BitVec 32) shapeCasts_S4096_S4096x1 := by
    dsimp only [V1, W1, hostOps0]; after_results; rfl
  rw [e, Cert.HostSide.col_apply]

/-- The row of labels: at (0, r) it is the label of row r. -/
theorem V1_v5 (c : Dev nD) (z : Fin 1) (r : Fin 4096) :
    (V1 m ρ c main_v5 : S1x4096.Idx → BitVec 32) (ix2 z r) = m ((c : Thread nD τ).loc main_arg1) (ix1 r) := by
  have e : (V1 m ρ c main_v5 : S1x4096.Idx → BitVec 32)
      = shapeCast S1x4096 (m ((c : Thread nD τ).loc main_arg1) : S4096.Idx → BitVec 32) shapeCasts_S4096_S1x4096 := by
    dsimp only [V1, W1, hostOps0]; after_results; rfl
  rw [e, Cert.HostSide.row_apply]

/-! ## The final value -/

/-- The program's result: the sum over r of the call's result at (r, 0), times 2^-13. -/
theorem W3_v9 (c : Dev nD) (j : S_.Idx) :
    (W3 m ρ c (Proc.devRef .tc main_v9) : S_.Idx → EReal) j
      = (∑ r : Fin 4096, (W2 m ρ c (Proc.devRef .tc main_v7) : S4096x1.Idx → EReal) (ix2 r (0 : Fin 1)) : EReal) * Cert.Spec.par := by
  have e : (W3 m ρ c (Proc.devRef .tc main_v9) : S_.Idx → EReal)
      = mulf (F := Ideal) (Host.reduceAdd (F := Ideal) (W2 m ρ c (Proc.devRef .tc main_v7) : FVec Ideal S4096x1 .f32)
          (constant (F := Ideal) S_ .f32 0x00000000#32) reducesTo_S4096x1_S_d0_1 h_S_)
          (constant (F := Ideal) S_ .f32 0x39000000#32) := by
    dsimp only [W3, hostOps1]; after_results
  rw [e]
  exact Cert.HostSide.tail_apply _ _ _ j

end Cert.KernelIdeal.Hand

end
-- ==== Proof.BlockPay.lean ====
/-
  What one launch of the kernel body adds to its output block, read at an index, over the extended reals.

  The body's arithmetic is the generated payload terms k0_pay1 … k0_pay6 (Gen/KernelIdeal/Skeleton.lean).
  For a launch at grid coordinates (i, j), with a, b the two 1024 x 1024 row blocks, sqi the squared lengths
  of the rows of a (a column), sqj those of the rows of b (a row), li and lj the labels likewise, and prev
  what the output block held before, the value stored at row r of the block is

      prev r + the sum over the columns c of
                 ( if 1024 i + r <= 4094 and 1 <= 1024 j + c
                   then sign r c * (sqi r + sqj c - 2 * the sum over k of a(r,k) * b(c,k))  else 0 )

  with sign r c = 1 if li r = lj c, else -1.  Each payload is read at an index in a lemma of its own, and the
  last theorem puts them together.
-/
import proofs.«109835_j10763188043951_2_alg».proof.Proof.Gen.KernelIdeal.Skeleton
import proofs.«109835_j10763188043951_2_alg».proof.Proof.Spec
import Idealize.ShloMosaic.Lib.ValueIdx
import Idealize.ShloMosaic.Lib.Pipeline.Value
import Idealize.ShloMosaic.Lib.ValueLayout
import Idealize.ShloMosaic.Lib.WordArith
import Idealize.ShloMosaic.PureOps.Ideal.Laws

noncomputable section

open scoped BigOperators

namespace Cert.KernelIdeal.BlockPay

open Idealize.ShloMosaic Idealize.ShloMosaic.ValueIdx Cert.KernelIdeal Cert.KernelIdeal.Gen

/-! ## The block's initial value -/

/-- The value the first column block's launch stores before accumulating: the zero word, which is 0. -/
theorem pay_zero (j : S1024x1.Idx) : k0_pay2 (F := Ideal) j = 0 := by
  unfold k0_pay2
  show Ideal.ofBits .f32 0x00000000#32 = 0
  exact Ideal.ofBits_zero_f32

/-! ## The two broadcasts -/

/-- A column [1024, 1] broadcast along the lanes reads, at (r, c), the column at (r, 0): the source axis of
    extent 1024 keeps its coordinate, the unit axis reads 0. -/
theorem bcast_col {α : Type} (x : S1024x1.Idx → α) (r cl : Fin 1024) :
    broadcastTo S1024x1024 x broadcasts_S1024x1_S1024x1024 (ix2 r cl) = x (ix2 r (0 : Fin 1)) :=
  broadcastTo_apply x broadcasts_S1024x1_S1024x1024 (ix2 r cl) (ix2 r (0 : Fin 1)) (fun a => match a with
    | ⟨0, _⟩ => by show r.val = if (1024 : Nat) = 1 then 0 else r.val; rw [if_neg (by decide)]
    | ⟨1, _⟩ => by show (0 : Nat) = if (1 : Nat) = 1 then 0 else cl.val; rw [if_pos rfl])

/-- A row [1, 1024] broadcast along the sublanes reads, at (r, c), the row at (0, c). -/
theorem bcast_row {α : Type} (x : S1x1024.Idx → α) (r cl : Fin 1024) :
    broadcastTo S1024x1024 x broadcasts_S1x1024_S1024x1024 (ix2 r cl) = x (ix2 (0 : Fin 1) cl) :=
  broadcastTo_apply x broadcasts_S1x1024_S1024x1024 (ix2 r cl) (ix2 (0 : Fin 1) cl) (fun a => match a with
    | ⟨0, _⟩ => by show (0 : Nat) = if (1 : Nat) = 1 then 0 else r.val; rw [if_pos rfl]
    | ⟨1, _⟩ => by show cl.val = if (1024 : Nat) = 1 then 0 else cl.val; rw [if_neg (by decide)])

/-! ## The matrix product -/

/-- The product's dimension numbers: each operand contracts its axis 1, and the result's two axes are the
    operands' axes 0. -/
abbrev D : DotDims S1024x1024 S1024x1024 S1024x1024 := dot_S1024x1024_S1024x1024_S1024x1024_1_1_0_0_n_n

/-- The left operand's index on its free axis 0 is the result's row. -/
theorem lhs_row (i : S1024x1024.Idx) (q : D.contr.Idx) : (D.lhsIdx i q 0).val = (i 0).val := by
  unfold DotDims.lhsIdx
  rw [dif_neg (show ¬(0 : Fin S1024x1024.rank) ∈ D.lhsBatch by decide),
    dif_pos (show (0 : Fin S1024x1024.rank) ∈ D.lhsNonContracting by decide)]
  rfl

/-- The left operand's index on its contracting axis 1 is the contraction position's one coordinate. -/
theorem lhs_con (i : S1024x1024.Idx) (q : D.contr.Idx) : (D.lhsIdx i q 1).val = (q ⟨0, by decide⟩).val :=
  D.lhsIdx_val_of_single rfl i q

/-- The right operand's index on its free axis 0 is the result's column. -/
theorem rhs_row (i : S1024x1024.Idx) (q : D.contr.Idx) : (D.rhsIdx i q 0).val = (i 1).val := by
  unfold DotDims.rhsIdx
  rw [dif_neg (show ¬(0 : Fin S1024x1024.rank) ∈ D.rhsBatch by decide),
    dif_pos (show (0 : Fin S1024x1024.rank) ∈ D.rhsNonContracting by decide)]
  rfl

/-- The right operand's index on its contracting axis 1 is the contraction position's one coordinate. -/
theorem rhs_con (i : S1024x1024.Idx) (q : D.contr.Idx) : (D.rhsIdx i q 1).val = (q ⟨0, by decide⟩).val :=
  D.rhsIdx_val_of_single rfl i q

/-- The product into a zero accumulator, read at (r, c): the inner product of row r of the left operand with
    row c of the right one. The sum over the one-axis contraction index is re-indexed by that axis's
    coordinate; the left operand is read at (r, k) and, both contracting axes being axis 1, the right one
    at (c, k). -/
theorem matmul_read (x y : FVec Ideal S1024x1024 .bf16) (r cl : Fin 1024) :
    matmul D none x y (constant S1024x1024 .f32 0x00000000#32) (ix2 r cl)
      = ∑ k : Fin 1024, x (ix2 r k) * y (ix2 cl k) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 r cl) ((contrEquiv1 D 1024 rfl rfl).symm k) = ix2 r k := funext fun a => Fin.ext (by
    match a with
    | ⟨0, _⟩ => exact lhs_row _ _
    | ⟨1, _⟩ => exact (lhs_con _ _).trans hk)
  have er : D.rhsIdx (ix2 r cl) ((contrEquiv1 D 1024 rfl rfl).symm k) = ix2 cl k := funext fun a => Fin.ext (by
    match a with
    | ⟨0, _⟩ => exact rhs_row _ _
    | ⟨1, _⟩ => exact (rhs_con _ _).trans hk)
  rw [el, er]

/-! ## The squared distances -/

/-- The first payload of the body at (r, c): sq_i(r) + sq_j(c) - 2 * (row r of a) . (row c of b). -/
theorem pay3_apply (a b : Vec Ideal S1024x1024 .bf16) (sqi : Vec Ideal S1024x1 .f32) (sqj : Vec Ideal S1x1024 .f32)
    (r cl : Fin 1024) :
    k0_pay3 (F := Ideal) a b sqi sqj (ix2 r cl)
      = sqi (ix2 r (0 : Fin 1)) + sqj (ix2 (0 : Fin 1) cl)
          - Cert.Spec.two * ∑ k : Fin 1024, a (ix2 r k) * b (ix2 cl k) := by
  unfold k0_pay3
  simp only [shapeCast_self]
  rw [subf_apply, addf_apply, mulf_apply, broadcast_apply, bcast_col, bcast_row, matmul_read]
  rfl

/-! ## The signs -/

/-- A select on the bit of an equality of words is the `if` on that equality. -/
theorem select_cmpi_eq {α : Type} (x y : BitVec 32) (A B : α) :
    Scalar.select (IntOp.cmpi .eq x y) A B = if x = y then A else B := by
  unfold Scalar.select IntOp.cmpi
  simp only [WordArith.ofBool_eq_numeral_one_iff, beq_iff_eq]

/-- The second payload of the body at (r, c): 1 where the row's label is the column's, else -1. -/
theorem pay4_apply (li : Vec Ideal S1024x1 .i32) (lj : Vec Ideal S1x1024 .i32) (r cl : Fin 1024) :
    k0_pay4 (F := Ideal) li lj (ix2 r cl)
      = if li (ix2 r (0 : Fin 1)) = lj (ix2 (0 : Fin 1) cl) then Cert.Spec.one else Cert.Spec.negOne := by
  unfold k0_pay4
  simp only [shapeCast_self]
  rw [select_apply, broadcast_apply, broadcast_apply]
  show Scalar.select (IntOp.cmpi .eq (broadcastTo S1024x1024 li broadcasts_S1024x1_S1024x1024 (ix2 r cl))
      (broadcastTo S1024x1024 lj broadcasts_S1x1024_S1024x1024 (ix2 r cl))) _ _ = _
  rw [bcast_col, bcast_row, select_cmpi_eq]
  rfl

/-! ## The global row and column numbers -/

/-- The third payload at (r, c): the row's number in the whole array, 1024 i + r, as a 32-bit word
    (the row iota plus the word 1024 * i; a word of a sum is the sum of the words, of a product the product). -/
theorem pay5_apply (co : grid0.Coords) (r cl : Fin 1024) :
    k0_pay5 co (ix2 r cl) = BitVec.ofNat 32 ((co 0).val * 1024 + r.val) := by
  unfold k0_pay5
  show IntOp.addi (iota .tc S1024x1024 32 [0] iota_S1024x1024_d0_w32 (ix2 r cl))
      (Scalar.muli (BitVec.ofNat 32 (co 0).val) 1024#32) = _
  rw [iota_single_apply]
  show BitVec.ofNat 32 r.val + BitVec.ofNat 32 (co 0).val * BitVec.ofNat 32 1024 = _
  rw [BitVec.ofNat_add, BitVec.ofNat_mul, add_comm]

/-- The fourth payload at (r, c): the column's number in the whole array, 1024 j + c, as a 32-bit word. -/
theorem pay6_apply (co : grid0.Coords) (r cl : Fin 1024) :
    k0_pay6 co (ix2 r cl) = BitVec.ofNat 32 ((co 1).val * 1024 + cl.val) := by
  unfold k0_pay6
  show IntOp.addi (iota .tc S1024x1024 32 [1] iota_S1024x1024_d1_w32 (ix2 r cl))
      (Scalar.muli (BitVec.ofNat 32 (co 1).val) 1024#32) = _
  rw [iota_single_apply]
  show BitVec.ofNat 32 cl.val + BitVec.ofNat 32 (co 1).val * BitVec.ofNat 32 1024 = _
  rw [BitVec.ofNat_add, BitVec.ofNat_mul, add_comm]

/-! ## The mask -/

/-- A select on "n <= 4094 and m >= 1", both compared signed on 32-bit words, for naturals n and m below
    2^31 (whose words read signed as themselves), is the `if` on the two inequalities of naturals. -/
theorem select_mask {α : Type} (n m : Nat) (hn : n < 2 ^ 31) (hm : m < 2 ^ 31) (A B : α) :
    Scalar.select (IntOp.andi (IntOp.cmpi .sle (BitVec.ofNat 32 n) 4094#32) (IntOp.cmpi .sge (BitVec.ofNat 32 m) 1#32)) A B
      = if n ≤ 4094 ∧ 1 ≤ m then A else B := by
  unfold Scalar.select IntOp.cmpi
  simp only [WordArith.andi_ofBool, WordArith.ofBool_eq_numeral_one_iff, Bool.and_eq_true, BitVec.sle_eq_decide,
    decide_eq_true_eq]
  rw [WordArith.toInt_ofNat_small n hn, WordArith.toInt_ofNat_small m hm,
    show (4094#32 : BitVec 32).toInt = 4094 by decide, show (1#32 : BitVec 32).toInt = 1 by decide]
  exact if_congr (by omega) rfl rfl

/-! ## The lane sum -/

/-- The sum over axis 1 of a [1024, 1024] vector into a zero accumulator, viewed as a column [1024, 1] and
    read at (r, 0): the sum over the columns c of the vector at (r, c). The column's position (r, 0) and the
    position r of the reduced vector are the same row-major position, and the reduced index r with the
    coordinate c inserted on axis 1 is (r, c). -/
theorem lane_sum (v : FVec Ideal S1024x1024 .f32) (r : Fin 1024) :
    shapeCast S1024x1
        (multiReduction (F := Ideal) .add [1] S1024 v 0x00000000#32 reduces_S1024x1024_S1024 (.inl rfl) rfl)
        shapeCasts_S1024_S1024x1 (ix2 r (0 : Fin 1))
      = ∑ cl : Fin 1024, v (ix2 r cl) := by
  refine (shapeCast_apply _ shapeCasts_S1024_S1024x1 (ix2 r (0 : Fin 1)) (ix1 r) ?_).trans ?_
  · rw [Shape.rowMajor_val_one, Shape.rowMajor_val_two]
    show r.val = r.val * 1 + 0
    omega
  · refine (Ideal.multiReduction_add_single v _ reduces_S1024x1024_S1024 _ _ (ix1 r)).trans ?_
    refine Finset.sum_congr rfl fun cl _ => congrArg v ?_
    funext a
    apply Fin.ext
    match a with
    | ⟨0, _⟩ => rfl
    | ⟨1, _⟩ => rfl

/-! ## What a launch stores -/

/-- The value a launch at grid coordinates (i, j) stores at row r of the output block: what the block held,
    plus the sum over the block's columns c of sign * dist2 where 1024 i + r <= 4094 and 1 <= 1024 j + c,
    of 0 elsewhere. The grid is 4 x 4, so the two global numbers stay below 4096 and their 32-bit words read
    signed as themselves. -/
theorem pay_acc (a b : Vec Ideal S1024x1024 .bf16) (sqi : Vec Ideal S1024x1 .f32) (sqj : Vec Ideal S1x1024 .f32)
    (li : Vec Ideal S1024x1 .i32) (lj : Vec Ideal S1x1024 .i32) (co : grid0.Coords) (prev : Vec Ideal S1024x1 .f32)
    (r : Fin 1024) :
    k0_pay1 (F := Ideal) (k0_pay3 a b sqi sqj) (k0_pay4 li lj) (k0_pay5 co) (k0_pay6 co) 4094#32 prev (ix2 r (0 : Fin 1))
      = prev (ix2 r (0 : Fin 1)) + ∑ cl : Fin 1024,
          (if (co 0).val * 1024 + r.val ≤ 4094 ∧ 1 ≤ (co 1).val * 1024 + cl.val then
             (if li (ix2 r (0 : Fin 1)) = lj (ix2 (0 : Fin 1) cl) then Cert.Spec.one else Cert.Spec.negOne)
               * (sqi (ix2 r (0 : Fin 1)) + sqj (ix2 (0 : Fin 1) cl)
                   - Cert.Spec.two * ∑ k : Fin 1024, a (ix2 r k) * b (ix2 cl k))
           else 0) := by
  have hi : (co 0).val < 4 := (co 0).isLt
  have hj : (co 1).val < 4 := (co 1).isLt
  have hr : r.val < 1024 := r.isLt
  unfold k0_pay1
  simp only [shapeCast_self]
  rw [addf_apply, lane_sum]
  refine congrArg (prev (ix2 r (0 : Fin 1)) + ·) (Finset.sum_congr rfl fun cl _ => ?_)
  have hc : cl.val < 1024 := cl.isLt
  rw [select_apply, mulf_apply, broadcast_apply, pay4_apply, pay3_apply]
  show Scalar.select (IntOp.andi (IntOp.cmpi .sle (k0_pay5 co (ix2 r cl)) 4094#32)
      (IntOp.cmpi .sge (k0_pay6 co (ix2 r cl)) 1#32)) _ _ = _
  rw [pay5_apply, pay6_apply, select_mask _ _ (by omega) (by omega)]
  show (if _ then _ else Ideal.ofBits .f32 0x00000000#32) = _
  rw [Ideal.ofBits_zero_f32]

end Cert.KernelIdeal.BlockPay

end
-- ==== Proof.RowSums.lean ====
/-
  Summing a row of the pair table block by block.

  The total of the specification is a double sum: over the rows i, and for each row over the 4096
  columns j, of term x l i j. A program that walks a row in four blocks of 1024 columns holds, after
  each block, the sum of the row's terms over the columns seen so far. That running value is
  partialRow below: the sum of the row's terms over the columns c < n. It starts at 0, grows by one
  block's terms at each step of 1024 columns, and at n = 4096 it is the whole row; the total is the
  sum of the whole rows.

  The extended reals are a commutative monoid under addition, so a finite sum may be cut into
  consecutive pieces and the pieces added in any grouping; nothing here asks that a term be finite.
-/
import proofs.«109835_j10763188043951_2_alg».proof.Proof.Spec
import Mathlib.Algebra.BigOperators.Fin

noncomputable section

open scoped BigOperators

namespace Cert.Spec

/-- The term of row i at a column given as a natural number: the term at that column while the
    number is below 4096, and 0 from there on (no such column). -/
def termNat (x : Mat) (l : Lab) (i : Fin 4096) (c : ℕ) : EReal :=
  if h : c < 4096 then term x l i ⟨c, h⟩ else 0

/-- The sum of row i's terms over the columns c < n. -/
def partialRow (x : Mat) (l : Lab) (i : Fin 4096) (n : ℕ) : EReal :=
  ∑ c ∈ Finset.range n, termNat x l i c

/-- At a column of the table, the term at the column's number is the term at the column. -/
theorem termNat_val (x : Mat) (l : Lab) (i j : Fin 4096) : termNat x l i j.val = term x l i j := by
  -- j.val < 4096, so the first branch is taken, at the column ⟨j.val, _⟩, which is j itself
  unfold termNat
  rw [dif_pos j.isLt]

/-- Before any column: the empty sum, 0. -/
theorem partialRow_zero (x : Mat) (l : Lab) (i : Fin 4096) : partialRow x l i 0 = 0 := by
  unfold partialRow
  exact Finset.sum_range_zero _

/-- One block further: the columns c < n + 1024 are the columns c < n followed by the 1024 columns
    n + cl, cl < 1024, so the sum over them is the sum over the first plus the sum over the block. -/
theorem partialRow_step (x : Mat) (l : Lab) (i : Fin 4096) (n : ℕ) :
    partialRow x l i (n + 1024) = partialRow x l i n + ∑ cl : Fin 1024, termNat x l i (n + cl.val) := by
  unfold partialRow
  -- sum over c < n + 1024  =  sum over c < n  +  sum over c' < 1024 of the term at n + c'
  rw [Finset.sum_range_add]
  -- and a sum over the naturals c' < 1024 is the sum over the type of naturals below 1024
  rw [Finset.sum_range (fun c' => termNat x l i (n + c'))]

/-- After all four blocks: the sum over the columns c < 4096 is the sum over the columns of the table. -/
theorem partialRow_full (x : Mat) (l : Lab) (i : Fin 4096) :
    partialRow x l i 4096 = ∑ j : Fin 4096, term x l i j := by
  unfold partialRow
  -- the sum over the naturals c < 4096 is the sum over j : Fin 4096 of the term at j's number,
  rw [Finset.sum_range (fun c => termNat x l i c)]
  -- which is the term at j
  exact Finset.sum_congr rfl fun j _ => termNat_val x l i j

/-- The total is the sum over the rows of the whole-row sums. -/
theorem total_eq_rows (x : Mat) (l : Lab) : total x l = ∑ i : Fin 4096, partialRow x l i 4096 := by
  unfold total
  exact Finset.sum_congr rfl fun i _ => (partialRow_full x l i).symm

end Cert.Spec

end
-- ==== Proof.KIValue.lean ====
/-
  The kernel's result at the ideal instance.

  Write x for the matrix argument and l for the label argument. Grid point t = 4*i + j works on row block i and
  column block j. Its input blocks are: rows 1024*i .. of x (twice: once as rows, once as the columns' rows, at
  1024*j ..), the squared lengths of those rows and of those columns, and their labels. One accumulation step adds
  to row r of the output block the sum over the block's 1024 columns of the masked signed squared distances, which
  is exactly the next 1024 terms of row (1024*i + r)'s sum over all columns. Hence, by induction on the point:
  after point t the output block's row r holds the partial sum of row 1024*i + r over the first 1024*(j+1) columns.
  The block is written back after column block 3, when that is the whole row sum; the four row blocks tile the
  result array, so the array ends as the row sums. The last host operations add the 4096 row sums, which is the
  sum over all pairs, and scale by 2^-13.
-/
import proofs.«109835_j10763188043951_2_alg».proof.Proof.KIPieces
import proofs.«109835_j10763188043951_2_alg».proof.Proof.KIEntry
import proofs.«109835_j10763188043951_2_alg».proof.Proof.BlockPay
import proofs.«109835_j10763188043951_2_alg».proof.Proof.RowSums
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (m : (ℓ : Loc nD τ sig) → Buf (Elt Ideal) ℓ) (ρ : Dev nD → PrngReg)

/-- The grid has 16 points. -/
theorem tlt (t : Fin cfg0.N) : t.val < 16 := lt_of_lt_of_eq t.isLt N_0

/-- The printed index maps and grid coordinates, decided over the 16 points: point t is row block t / 4 and column
    block t % 4; the row-indexed windows sit at block t / 4, the column-indexed ones at block t % 4. -/
theorem idx_facts : ∀ t : Fin cfg0.N,
    ((grid0.coords t) 0).val = t.val / 4 ∧ ((grid0.coords t) 1).val = t.val % 4
    ∧ win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = 0 ∧ win0_5.index t (1 : Fin 2) = t.val % 4
    ∧ win0_6.index t (0 : Fin 2) = t.val / 4 ∧ win0_6.index t (1 : Fin 2) = 0 :=
  (by decide +kernel : ∀ t : Fin grid0.N, _)

/-- The row of the whole array that row r of point t's row block is. -/
def rowOf (t : Fin cfg0.N) (r : Fin 1024) : Fin 4096 := ⟨t.val / 4 * 1024 + r.val, by have := tlt t; have := r.isLt; omega⟩
/-- The column of the whole pair matrix that column cl of point t's column block is. -/
def colOf (t : Fin cfg0.N) (cl : Fin 1024) : Fin 4096 := ⟨t.val % 4 * 1024 + cl.val, by have := cl.isLt; omega⟩

section Blocks
variable {F : FTy → Type} [FloatOps F]
variable (V : (c : Dev nD) → (b : Ref sig .tc) → Buf (Elt F) ((c : Thread nD τ).loc b))

/-- The row window of the matrix at point t, read at (r, k), is the matrix at (rowOf t r, k). -/
theorem blk0_apply (c : Dev nD) (t : Fin cfg0.N) (r k : Fin 1024) :
    (iblk V c 0 t : S1024x1024.Idx → Elt F .bf16) (ix2 r k) = (V c main_v6 : S4096x1024.Idx → Elt F .bf16) (ix2 (rowOf t r) k) := by
  obtain ⟨_, _, e0, e1, _⟩ := idx_facts t
  show (V c main_v6 : S4096x1024.Idx → Elt F .bf16) (((cfg0.win 0).blk t).view.emb (ix2 r k)) = _
  refine congrArg _ (funext fun a => Fin.ext ?_)
  match a with
  | ⟨0, _⟩ => show win0_0.index t (0 : Fin 2) * 1024 + 1 * r.val = t.val / 4 * 1024 + r.val; omega
  | ⟨1, _⟩ => show win0_0.index t (1 : Fin 2) * 1024 + 1 * k.val = k.val; omega

/-- The column window of the matrix at point t, read at (cl, k), is the matrix at (colOf t cl, k). -/
theorem blk1_apply (c : Dev nD) (t : Fin cfg0.N) (cl k : Fin 1024) :
    (iblk V c 1 t : S1024x1024.Idx → Elt F .bf16) (ix2 cl k) = (V c main_v6 : S4096x1024.Idx → Elt F .bf16) (ix2 (colOf t cl) k) := by
  obtain ⟨_, _, _, _, e0, e1, _⟩ := idx_facts t
  show (V c main_v6 : S4096x1024.Idx → Elt F .bf16) (((cfg0.win 1).blk t).view.emb (ix2 cl k)) = _
  refine congrArg _ (funext fun a => Fin.ext ?_)
  match a with
  | ⟨0, _⟩ => show win0_1.index t (0 : Fin 2) * 1024 + 1 * cl.val = t.val % 4 * 1024 + cl.val; omega
  | ⟨1, _⟩ => show win0_1.index t (1 : Fin 2) * 1024 + 1 * k.val = k.val; omega

/-- The window of the rows' squared lengths at point t. -/
theorem blk2_apply (c : Dev nD) (t : Fin cfg0.N) (r : Fin 1024) (z : Fin 1) :
    (iblk V c 2 t : S1024x1.Idx → Elt F .f32) (ix2 r z) = (V c main_v2 : S4096x1.Idx → Elt F .f32) (ix2 (rowOf t r) z) := by
  obtain ⟨_, _, _, _, _, _, e0, e1, _⟩ := idx_facts t
  show (V c main_v2 : S4096x1.Idx → Elt F .f32) (((cfg0.win 2).blk t).view.emb (ix2 r z)) = _
  refine congrArg _ (funext fun a => Fin.ext ?_)
  match a with
  | ⟨0, _⟩ => show win0_2.index t (0 : Fin 2) * 1024 + 1 * r.val = t.val / 4 * 1024 + r.val; omega
  | ⟨1, _⟩ => show win0_2.index t (1 : Fin 2) * 1 + 1 * z.val = z.val; omega

/-- The window of the columns' squared lengths at point t. -/
theorem blk3_apply (c : Dev nD) (t : Fin cfg0.N) (z : Fin 1) (cl : Fin 1024) :
    (iblk V c 3 t : S1x1024.Idx → Elt F .f32) (ix2 z cl) = (V c main_v3 : S1x4096.Idx → Elt F .f32) (ix2 z (colOf t cl)) := by
  obtain ⟨_, _, _, _, _, _, _, _, e0, e1, _⟩ := idx_facts t
  show (V c main_v3 : S1x4096.Idx → Elt F .f32) (((cfg0.win 3).blk t).view.emb (ix2 z cl)) = _
  refine congrArg _ (funext fun a => Fin.ext ?_)
  match a with
  | ⟨0, _⟩ => show win0_3.index t (0 : Fin 2) * 1 + 1 * z.val = z.val; omega
  | ⟨1, _⟩ => show win0_3.index t (1 : Fin 2) * 1024 + 1 * cl.val = t.val % 4 * 1024 + cl.val; omega

/-- The window of the rows' labels at point t. -/
theorem blk4_apply (c : Dev nD) (t : Fin cfg0.N) (r : Fin 1024) (z : Fin 1) :
    (iblk V c 4 t : S1024x1.Idx → Elt F .i32) (ix2 r z) = (V c main_v4 : S4096x1.Idx → Elt F .i32) (ix2 (rowOf t r) z) := by
  obtain ⟨_, _, _, _, _, _, _, _, _, _, e0, e1, _⟩ := idx_facts t
  show (V c main_v4 : S4096x1.Idx → Elt F .i32) (((cfg0.win 4).blk t).view.emb (ix2 r z)) = _
  refine congrArg _ (funext fun a => Fin.ext ?_)
  match a with
  | ⟨0, _⟩ => show win0_4.index t (0 : Fin 2) * 1024 + 1 * r.val = t.val / 4 * 1024 + r.val; omega
  | ⟨1, _⟩ => show win0_4.index t (1 : Fin 2) * 1 + 1 * z.val = z.val; omega

/-- The window of the columns' labels at point t. -/
theorem blk5_apply (c : Dev nD) (t : Fin cfg0.N) (z : Fin 1) (cl : Fin 1024) :
    (iblk V c 5 t : S1x1024.Idx → Elt F .i32) (ix2 z cl) = (V c main_v5 : S1x4096.Idx → Elt F .i32) (ix2 z (colOf t cl)) := by
  obtain ⟨_, _, _, _, _, _, _, _, _, _, _, _, e0, e1, _⟩ := idx_facts t
  show (V c main_v5 : S1x4096.Idx → Elt F .i32) (((cfg0.win 5).blk t).view.emb (ix2 z cl)) = _
  refine congrArg _ (funext fun a => Fin.ext ?_)
  match a with
  | ⟨0, _⟩ => show win0_5.index t (0 : Fin 2) * 1 + 1 * z.val = z.val; omega
  | ⟨1, _⟩ => show win0_5.index t (1 : Fin 2) * 1024 + 1 * cl.val = t.val % 4 * 1024 + cl.val; omega

end Blocks

/-- The two arguments as the specification's matrix and label vector. -/
abbrev xOf (c : Dev nD) : Cert.Spec.Mat := m ((c : Thread nD τ).loc main_arg0)
abbrev labOf (c : Dev nD) : Cert.Spec.Lab := m ((c : Thread nD τ).loc main_arg1)

/-- The six input blocks at point t, at the call's entry contents, with their types. -/
abbrev blkA (c : Dev nD) (t : Fin cfg0.N) : Vec Ideal S1024x1024 .bf16 := iblk (V1 m ρ) c 0 t
abbrev blkB (c : Dev nD) (t : Fin cfg0.N) : Vec Ideal S1024x1024 .bf16 := iblk (V1 m ρ) c 1 t
abbrev blkSi (c : Dev nD) (t : Fin cfg0.N) : Vec Ideal S1024x1 .f32 := iblk (V1 m ρ) c 2 t
abbrev blkSj (c : Dev nD) (t : Fin cfg0.N) : Vec Ideal S1x1024 .f32 := iblk (V1 m ρ) c 3 t
abbrev blkLi (c : Dev nD) (t : Fin cfg0.N) : Vec Ideal S1024x1 .i32 := iblk (V1 m ρ) c 4 t
abbrev blkLj (c : Dev nD) (t : Fin cfg0.N) : Vec Ideal S1x1024 .i32 := iblk (V1 m ρ) c 5 t

/-- ONE TERM: what the body computes for row r and column cl of point t's blocks is the pair (rowOf t r, colOf t cl)'s
    contribution. -/
theorem term_block (c : Dev nD) (t : Fin cfg0.N) (r cl : Fin 1024) :
    (if ((grid0.coords t) 0).val * 1024 + r.val ≤ 4094 ∧ 1 ≤ ((grid0.coords t) 1).val * 1024 + cl.val then
        (if blkLi m ρ c t (ix2 r (0 : Fin 1)) = blkLj m ρ c t (ix2 (0 : Fin 1) cl) then Cert.Spec.one else Cert.Spec.negOne)
          * (blkSi m ρ c t (ix2 r (0 : Fin 1)) + blkSj m ρ c t (ix2 (0 : Fin 1) cl)
              - Cert.Spec.two * ∑ k : Fin 1024, blkA m ρ c t (ix2 r k) * blkB m ρ c t (ix2 cl k))
      else 0)
      = Cert.Spec.termNat (xOf m c) (labOf m c) (rowOf t r) (t.val % 4 * 1024 + cl.val) := by
  obtain ⟨g0, g1, _⟩ := idx_facts t
  have hcol : t.val % 4 * 1024 + cl.val < 4096 := by have := cl.isLt; omega
  have hterm : Cert.Spec.termNat (xOf m c) (labOf m c) (rowOf t r) (t.val % 4 * 1024 + cl.val)
      = Cert.Spec.term (xOf m c) (labOf m c) (rowOf t r) (colOf t cl) := by
    unfold Cert.Spec.termNat; rw [dif_pos hcol]; rfl
  have eLi : blkLi m ρ c t (ix2 r (0 : Fin 1)) = labOf m c (ix1 (rowOf t r)) := (blk4_apply (V1 m ρ) c t r 0).trans (V1_v4 m ρ c (rowOf t r) 0)
  have eLj : blkLj m ρ c t (ix2 (0 : Fin 1) cl) = labOf m c (ix1 (colOf t cl)) := (blk5_apply (V1 m ρ) c t 0 cl).trans (V1_v5 m ρ c 0 (colOf t cl))
  have eSi : blkSi m ρ c t (ix2 r (0 : Fin 1)) = Cert.Spec.sq (xOf m c) (rowOf t r) := (blk2_apply (V1 m ρ) c t r 0).trans (V1_v2 m ρ c (rowOf t r) 0)
  have eSj : blkSj m ρ c t (ix2 (0 : Fin 1) cl) = Cert.Spec.sq (xOf m c) (colOf t cl) := (blk3_apply (V1 m ρ) c t 0 cl).trans (V1_v3 m ρ c 0 (colOf t cl))
  have eG : (∑ k : Fin 1024, blkA m ρ c t (ix2 r k) * blkB m ρ c t (ix2 cl k)) = Cert.Spec.gram (xOf m c) (rowOf t r) (colOf t cl) := by
    unfold Cert.Spec.gram
    refine Finset.sum_congr rfl fun k _ => ?_
    have ea : blkA m ρ c t (ix2 r k) = xOf m c (ix2 (rowOf t r) k) := (blk0_apply (V1 m ρ) c t r k).trans (V1_v6 m ρ c _)
    have eb : blkB m ρ c t (ix2 cl k) = xOf m c (ix2 (colOf t cl) k) := (blk1_apply (V1 m ρ) c t cl k).trans (V1_v6 m ρ c _)
    rw [ea, eb]
  rw [hterm, eLi, eLj, eSi, eSj, eG, g0, g1]
  rfl

/-- ONE ACCUMULATION STEP at point t: the stored row r is the row handed in plus the next 1024 terms of the row's sum. -/
theorem step_sum (c : Dev nD) (t : Fin cfg0.N) (r : Fin 1024) (prev : Vec Ideal S1024x1 .f32) :
    k0_pay1 (F := Ideal) (k0_pay3 (blkA m ρ c t) (blkB m ρ c t) (blkSi m ρ c t) (blkSj m ρ c t)) (k0_pay4 (blkLi m ρ c t) (blkLj m ρ c t))
        (k0_pay5 (grid0.coords t)) (k0_pay6 (grid0.coords t)) 4094#32 prev (ix2 r (0 : Fin 1))
      = prev (ix2 r (0 : Fin 1)) + ∑ cl : Fin 1024, Cert.Spec.termNat (xOf m c) (labOf m c) (rowOf t r) (t.val % 4 * 1024 + cl.val) := by
  rw [Cert.KernelIdeal.BlockPay.pay_acc]
  exact congrArg (prev (ix2 r (0 : Fin 1)) + ·) (Finset.sum_congr rfl fun cl _ => term_block m ρ c t r cl)

/-- The output block after position n, with its type. -/
abbrev outN (c : Dev nD) (n : ℕ) (hn : n < cfg0.N) : Vec Ideal S1024x1 .f32 := outsAt (V1 m ρ) c n hn

/-- THE INVARIANT: after point n the output block's row r holds row (rowOf n r)'s partial sum over the first
    1024 * (n % 4 + 1) columns. -/
theorem outsAt_inv (c : Dev nD) : ∀ (n : ℕ) (hn : n < cfg0.N) (r : Fin 1024),
    outN m ρ c n hn (ix2 r (0 : Fin 1))
      = Cert.Spec.partialRow (xOf m c) (labOf m c) (rowOf ⟨n, hn⟩ r) ((n % 4 + 1) * 1024) := by
  intro n
  induction n with
  | zero =>
    intro hn r
    show (outsAt (V1 m ρ) c (⟨0, hn⟩ : Fin cfg0.N).val (⟨0, hn⟩ : Fin cfg0.N).isLt : Vec Ideal S1024x1 .f32) (ix2 r (0 : Fin 1)) = _
    rw [outsAt_A (V1 m ρ) c ⟨0, hn⟩ (Nat.zero_mod _)]
    unfold outPA
    rw [outA_eq]
    refine (step_sum m ρ c ⟨0, hn⟩ r _).trans ?_
    show k0_pay2 (F := Ideal) (ix2 r (0 : Fin 1)) + ∑ cl : Fin 1024, Cert.Spec.termNat (xOf m c) (labOf m c) (rowOf ⟨0, hn⟩ r) (0 + cl.val)
      = Cert.Spec.partialRow (xOf m c) (labOf m c) (rowOf ⟨0, hn⟩ r) (0 + 1024)
    rw [Cert.KernelIdeal.BlockPay.pay_zero, Cert.Spec.partialRow_step, Cert.Spec.partialRow_zero]
  | succ n ih =>
    intro hn r
    have hN : n + 1 < 16 := lt_of_lt_of_eq hn N_0
    show (outsAt (V1 m ρ) c (⟨n + 1, hn⟩ : Fin cfg0.N).val (⟨n + 1, hn⟩ : Fin cfg0.N).isLt : Vec Ideal S1024x1 .f32) (ix2 r (0 : Fin 1)) = _
    by_cases h0 : (n + 1) % 4 = 0
    · rw [outsAt_A (V1 m ρ) c ⟨n + 1, hn⟩ h0]
      unfold outPA
      rw [outA_eq]
      refine (step_sum m ρ c ⟨n + 1, hn⟩ r _).trans ?_
      show k0_pay2 (F := Ideal) (ix2 r (0 : Fin 1)) + ∑ cl : Fin 1024, Cert.Spec.termNat (xOf m c) (labOf m c) (rowOf ⟨n + 1, hn⟩ r) ((n + 1) % 4 * 1024 + cl.val)
        = Cert.Spec.partialRow (xOf m c) (labOf m c) (rowOf ⟨n + 1, hn⟩ r) (((n + 1) % 4 + 1) * 1024)
      rw [h0]
      show _ = Cert.Spec.partialRow (xOf m c) (labOf m c) (rowOf ⟨n + 1, hn⟩ r) (0 * 1024 + 1024)
      rw [Cert.KernelIdeal.BlockPay.pay_zero, Cert.Spec.partialRow_step]
      show _ = Cert.Spec.partialRow (xOf m c) (labOf m c) (rowOf ⟨n + 1, hn⟩ r) 0 + _
      rw [Cert.Spec.partialRow_zero]
    · rw [outsAt_B (V1 m ρ) c ⟨n + 1, hn⟩ h0]
      unfold outPB
      rw [outB_eq]
      refine (step_sum m ρ c ⟨n + 1, hn⟩ r _).trans ?_
      have hprev := ih (Nat.lt_of_succ_lt hn) r
      have hrow : rowOf ⟨n, Nat.lt_of_succ_lt hn⟩ r = rowOf ⟨n + 1, hn⟩ r := by
        unfold rowOf; apply Fin.ext; show n / 4 * 1024 + r.val = (n + 1) / 4 * 1024 + r.val; omega
      rw [hrow, show (n % 4 + 1) * 1024 = (n + 1) % 4 * 1024 from by omega] at hprev
      show outN m ρ c n (Nat.lt_of_succ_lt hn) (ix2 r (0 : Fin 1)) + ∑ cl : Fin 1024, Cert.Spec.termNat (xOf m c) (labOf m c) (rowOf ⟨n + 1, hn⟩ r) ((n + 1) % 4 * 1024 + cl.val)
        = Cert.Spec.partialRow (xOf m c) (labOf m c) (rowOf ⟨n + 1, hn⟩ r) (((n + 1) % 4 + 1) * 1024)
      rw [show ((n + 1) % 4 + 1) * 1024 = (n + 1) % 4 * 1024 + 1024 from by omega, Cert.Spec.partialRow_step, hprev]

/-- The result array as one function of the arguments: each row's sum over all columns. -/
def Kout (x : Cert.Spec.Mat) (l : Cert.Spec.Lab) : S4096x1.Idx → EReal :=
  fun j => Cert.Spec.partialRow x l ⟨(j 0).val, idx2_lt0 j⟩ 4096

/-- WHAT A FLUSHING POINT WRITES BACK is its block of `Kout`: the output block is written back after column block 3. -/
theorem flushed_eq (c : Dev nD) (t : Fin cfg0.N) (hf : (cfg0.win 6).flush t = true) :
    (dat0 (V1 m ρ) c).flushed 6 t = ((cfg0.win 6).blk t).view.read (Elt Ideal) (Kout (xOf m c) (labOf m c)) := by
  have h3 : t.val % 4 = 3 := (flush0_6 t).mp hf
  obtain ⟨_, _, _, _, _, _, _, _, _, _, _, _, _, _, e0, e1⟩ := idx_facts t
  show (cfg0.win 6).cut (grid0.coords t) ((dat0 (V1 m ρ) c).after 6 t) = _
  rw [after6]
  funext j
  obtain ⟨r, z, rfl⟩ : ∃ (r : Fin 1024) (z : Fin 1), j = ix2 r z := ⟨j 0, j 1, eq_ix2 j⟩
  obtain rfl : z = 0 := Subsingleton.elim _ _
  show outN m ρ c t.val t.isLt (ix2 r (0 : Fin 1)) = Kout (xOf m c) (labOf m c) (((cfg0.win 6).blk t).view.emb (ix2 r (0 : Fin 1)))
  rw [outsAt_inv m ρ c t.val t.isLt r, h3]
  unfold Kout
  refine congrArg (fun i => Cert.Spec.partialRow (xOf m c) (labOf m c) i 4096) (Fin.ext ?_)
  show t.val / 4 * 1024 + r.val = win0_6.index t (0 : Fin 2) * 1024 + 1 * r.val
  omega

/-- An index of the result array is in point t's block iff each coordinate is in the block's range on its axis. -/
theorem mem_blk6 (t : Fin cfg0.N) (i : S4096x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v7).slice (win0_6.rect t)).set ↔ _
  rw [View.set_slice_whole, Rect.mem_set_unit]
  exact Iff.rfl

/-- THE COVER: row i of the result lies in the block written back at the last column block of row block i / 1024. -/
theorem cover6 (i : S4096x1.Idx) : ∃ t : Fin cfg0.N, (cfg0.win 6).flush t = true ∧ i ∈ ((cfg0.win 6).blk t).view.set := by
  have hi0 : (i 0).val < 4096 := idx2_lt0 i
  have hi1 : (i 1).val < 1 := idx2_lt1 i
  let t : Fin cfg0.N := ⟨(i 0).val / 1024 * 4 + 3, by rw [show cfg0.N = 16 from N_0]; omega⟩
  have htv : t.val = (i 0).val / 1024 * 4 + 3 := rfl
  obtain ⟨_, _, _, _, _, _, _, _, _, _, _, _, _, _, e0, e1⟩ := idx_facts t
  refine ⟨t, (flush0_6 t).mpr (by omega), ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

/-- THE RESULT ARRAY after the call: the row sums. -/
theorem final6 (c : Dev nD) : (dat0 (V1 m ρ) c).arrAt 6 cfg0.N = Kout (xOf m c) (labOf m c) :=
  (dat0 (V1 m ρ) c).arrAt_eq_of_cover 6 (Kout (xOf m c) (labOf m c)) (fun t hf => flushed_eq m ρ c t hf) cover6

/-- THE PROGRAM'S RESULT: the sum over all pairs, scaled. -/
theorem result_eq (c : Dev nD) (j : S_.Idx) :
    (W3 m ρ c (Proc.devRef .tc main_v9) : S_.Idx → EReal) j = Cert.Spec.result (xOf m c) (labOf m c) := by
  rw [W3_v9, W2_out, final6]
  unfold Cert.Spec.result
  rw [Cert.Spec.total_eq_rows]
  rfl

end Cert.KernelIdeal.Hand

end
-- ==== Proof.RefIsSpec.lean ====
/-
  The reference program computes the specification.

  The reference is a chain of 47 array operations. Read at an index, each stage is a function of
  its operands at an index, so the whole chain can be followed one entry at a time:
    stage 1  at row i           is  sq x i        (the sum over k of x(i,k)^2),
    stage 3  at the pair (i,j)  is  gram x i j    (the sum over k of x(i,k) * x(j,k)),
    stage 11 at (i,j)           is  dist2 x i j   (sq x i + sq x j - 2 * gram x i j),
    stage 29 at (i,j)           is  sign l i j    (1 on equal labels, -1 otherwise),
    stage 28 at (i,j)           is  the bit of  "i <= 4094 and 1 <= j",
    stage 31 at (i,j)           is  term x l i j,
    stage 32                    is  the sum of all the terms,
    stage 33                    is  2^-13 times that sum.
  Each line below is one lemma; the last one is the theorem.
-/
import proofs.«109835_j10763188043951_2_alg».proof.Proof.Gen.ReferenceIdeal.Read
import proofs.«109835_j10763188043951_2_alg».proof.Proof.Spec
import Idealize.ShloMosaic.Lib.Affine

noncomputable section

open scoped BigOperators

namespace Cert.RefValue

open Cert.ReferenceIdeal Cert.ReferenceIdeal.Read Idealize.ShloMosaic Idealize.ShloMosaic.ValueIdx

/-- The first argument: a 4096 x 1024 array of extended reals. -/
abbrev X0 : Type := (⟨S4096x1024, .f32⟩ : BufTy).Contents (Elt Ideal)
/-- The second argument: 4096 labels, 32-bit words. -/
abbrev X1 : Type := (⟨S4096, .i32⟩ : BufTy).Contents (Elt Ideal)

/-! ## The squared lengths of the rows -/

/-- Stage 1 at row i: the initial value 0 plus the sum over k of x(i,k) * x(i,k), which is sq x i. -/
theorem sq_at (x0 : X0) (a : Fin 4096) :
    val_main_v1 (F := Ideal) x0 (ix1 a) = Cert.Spec.sq x0 a := by
  rw [val_main_v1_apply, val_main_cst_apply, Ideal.ofBits_def, Ideal.ofBits_zero_f32, zero_add]
  unfold Cert.Spec.sq
  refine Finset.sum_congr rfl fun k _ => ?_
  -- the entry of the reduced array that the sum reads at k is the entry (a, k)
  have e : idx_main_v1 (ix1 a) k = ix2 a k :=
    funext fun d => Fin.ext (by match d with | ⟨0, _⟩ => rfl | ⟨1, _⟩ => rfl)
  rw [e, val_main_v0_apply, Ideal.mulf_def]

/-! ## The inner products of the rows -/

/-- Stage 3 at (i, j): the sum over k of x(i,k) times the transpose at (k,j), that is x(j,k). -/
theorem gram_at (x0 : X0) (a b : Fin 4096) :
    val_main_v3 (F := Ideal) x0 (ix2 a b) = Cert.Spec.gram x0 a b := by
  rw [val_main_v3_apply]
  unfold Cert.Spec.gram
  refine Finset.sum_congr rfl fun k _ => ?_
  rw [val_main_v2_apply]
  -- the left factor is read at (a, k); the transpose at (k, b) reads x at (b, k)
  have el : lidx_main_v3 (ix2 a b) k = ix2 a k :=
    funext fun d => Fin.ext (by match d with | ⟨0, _⟩ => rfl | ⟨1, _⟩ => rfl)
  have er : idx_main_v2 (ridx_main_v3 (ix2 a b) k) = ix2 b k :=
    funext fun d => Fin.ext (by match d with | ⟨0, _⟩ => rfl | ⟨1, _⟩ => rfl)
  rw [el, er]

/-! ## The squared distances -/

/-- Stage 11 at (i, j): the row lengths sq x i and sq x j, each copied along the other axis
    (stages 4 to 7), added (stage 8), minus the constant 2 (stage 9) times the inner product
    (stage 10). -/
theorem dist2_at (x0 : X0) (a b : Fin 4096) :
    val_main_v11 (F := Ideal) x0 (ix2 a b) = Cert.Spec.dist2 x0 a b := by
  rw [val_main_v11_apply, val_main_v8_apply, val_main_v10_apply, val_main_v6_apply, val_main_v7_apply,
    val_main_v4_apply, val_main_v5_apply, val_main_v9_apply, val_main_cst_0_apply, gram_at]
  -- the copy along the columns reads row a; the copy along the rows reads row b
  have ea : idx_main_v4 (idx_main_v6 (ix2 a b)) = ix1 a :=
    funext fun d => Fin.ext (by match d with | ⟨0, _⟩ => rfl)
  have eb : idx_main_v5 (idx_main_v7 (ix2 a b)) = ix1 b :=
    funext fun d => Fin.ext (by match d with | ⟨0, _⟩ => rfl)
  rw [ea, eb, sq_at, sq_at, Ideal.addf_def, Ideal.mulf_def, Ideal.subf_def, Ideal.ofBits_def]
  rfl

/-! ## The signs -/

/-- Stage 29 at (i, j): the labels l i and l j, each copied along the other axis (stages 12 to 15),
    compared for equality (stage 16); the constant 1 where they agree and -1 where they do not
    (stage 17). Stage 29 is a conversion from the element type to itself. -/
theorem sign_at (x1 : X1) (a b : Fin 4096) :
    val_main_v29 (F := Ideal) x1 (ix2 a b) = Cert.Spec.sign x1 a b := by
  rw [val_main_v29_apply, val_main_v17_apply, val_main_v16_apply, val_main_v14_apply, val_main_v15_apply,
    val_main_v12_apply, val_main_v13_apply, val_main_call0_v0_apply, val_main_call0_v1_apply,
    val_main_cst_1_apply, val_main_cst_2_apply, Ideal.ofBits_def, Ideal.ofBits_def]
  have ea : idx_main_v12 (idx_main_v14 (ix2 a b)) = ix1 a :=
    funext fun d => Fin.ext (by match d with | ⟨0, _⟩ => rfl)
  have eb : idx_main_v13 (idx_main_v15 (ix2 a b)) = ix1 b :=
    funext fun d => Fin.ext (by match d with | ⟨0, _⟩ => rfl)
  rw [ea, eb]
  unfold Cert.Spec.sign
  -- the comparison's bit is 1 exactly when the two labels are the same word
  by_cases h : x1 (ix1 a) = x1 (ix1 b)
  · rw [if_pos h, IntOp.cmpi_eq.mpr h, select_one]
  · rw [if_neg h, eq_zero_of_ne_one (fun hh => h (IntOp.cmpi_eq.mp hh)), select_zero]

/-! ## The mask -/

/-- A natural number below 4096, written as a 32-bit word and read back as a signed integer, is
    itself: it is below 2^32, so the word's unsigned value is r, and twice r is below 2^32, so the
    top bit is clear and the signed value is the unsigned one. -/
theorem toInt_ofNat_small (r : Nat) (h : r < 4096) : (BitVec.ofNat 32 r).toInt = (r : Int) := by
  have e := BitVec.toInt_eq_toNat_cond (BitVec.ofNat 32 r)
  have hm : r % 2 ^ 32 = r := Nat.mod_eq_of_lt (by omega)
  rw [BitVec.toNat_ofNat, hm] at e
  rw [e, if_pos (by omega)]

/-- Stage 28 at (i, j): the row number i as a word, compared (signed) with 4094 (stages 18 to 21),
    and the column number j as a word, compared (signed) with 1 (stages 22 to 25), each copied along
    the other axis (stages 26, 27), and the two bits combined by "and". The bit is 1 exactly when
    i <= 4094 and 1 <= j. -/
theorem mask_at (a b : Fin 4096) :
    val_main_v28 (F := Ideal) (ix2 a b) = 1#1 ↔ (a.val ≤ 4094 ∧ 1 ≤ b.val) := by
  rw [val_main_v28_apply, IntOp.andi_eq_one, val_main_v26_apply, val_main_v27_apply, val_main_v21_apply,
    val_main_v25_apply, val_main_v19_apply, val_main_v20_apply, val_main_v23_apply, val_main_v24_apply,
    val_main_v18_apply, val_main_v22_apply, val_main_c_apply, val_main_c_3_apply, IntOp.cmpi_sle, IntOp.cmpi_sge]
  -- the row iota is read at coordinate a, the column iota at coordinate b
  have ha : ((idx_main_v19 (idx_main_v26 (ix2 a b))) 0).val = a.val := rfl
  have hb : ((idx_main_v23 (idx_main_v27 (ix2 a b))) 0).val = b.val := rfl
  rw [ha, hb, toInt_ofNat_small _ a.isLt, toInt_ofNat_small _ b.isLt]
  have h1 : (4094#32 : BitVec 32).toInt = 4094 := by decide
  have h2 : (1#32 : BitVec 32).toInt = 1 := by decide
  rw [h1, h2]
  omega

/-! ## One pair's term -/

/-- Stage 31 at (i, j): where the mask's bit is 1, the sign times the squared distance (stage 30);
    elsewhere the constant 0. -/
theorem term_at (x0 : X0) (x1 : X1) (a b : Fin 4096) :
    val_main_v31 (F := Ideal) x0 x1 (ix2 a b) = Cert.Spec.term x0 x1 a b := by
  rw [val_main_v31_apply, val_main_v30_apply, val_main_call1_v1_apply, val_main_call1_v0_apply,
    val_main_cst_4_apply, Ideal.ofBits_def, Ideal.ofBits_zero_f32, Ideal.mulf_def, sign_at, dist2_at]
  unfold Cert.Spec.term
  by_cases h : a.val ≤ 4094 ∧ 1 ≤ b.val
  · rw [if_pos h, (mask_at a b).mpr h, select_one]
  · rw [if_neg h, eq_zero_of_ne_one (fun hh => h ((mask_at a b).mp hh)), select_zero]

/-! ## The sum over all pairs, and the result -/

/-- Stage 32: the initial value 0 plus the sum over every index of the 4096 x 4096 array, which
    is the sum over i of the sum over j of the entry at (i, j). -/
theorem total_at (x0 : X0) (x1 : X1) (i : S_.Idx) :
    val_main_v32 (F := Ideal) x0 x1 i = Cert.Spec.total x0 x1 := by
  rw [val_main_v32_apply, val_main_cst_5_apply, Ideal.ofBits_def, Ideal.ofBits_zero_f32, zero_add, sum_idx2]
  unfold Cert.Spec.total
  exact Finset.sum_congr rfl fun a _ => Finset.sum_congr rfl fun b _ => term_at x0 x1 a b

/-- Stage 33, the reference's result: the constant 2^-13 times the total. The specification writes
    the product the other way round; multiplication of extended reals is commutative. -/
theorem ref_is_spec (x0 : (⟨Cert.ReferenceIdeal.S4096x1024, .f32⟩ : BufTy).Contents (Elt Ideal))
    (x1 : (⟨Cert.ReferenceIdeal.S4096, .i32⟩ : BufTy).Contents (Elt Ideal)) (i : Cert.ReferenceIdeal.S_.Idx) :
    Cert.ReferenceIdeal.Read.val_main_v33 (F := Ideal) x0 x1 i = Cert.Spec.result x0 x1 := by
  rw [val_main_v33_apply, val_main_cst_6_apply, Ideal.ofBits_def, Ideal.mulf_def, total_at]
  unfold Cert.Spec.result
  exact mul_comm _ _

end Cert.RefValue

end
-- ==== Proof.lean ====
/-
  The claim: a kernel that sums, over all pairs of rows (i, j) of a 4096 x 1024 matrix with i <= 4094 and j >= 1,
  plus or minus the squared distance of the two rows (plus when their labels agree), scaled by 2^-13, equals the
  plain array program that builds the whole 4096 x 4096 table of those terms and sums it.

  Over the extended reals both programs compute, for each pair, the same expression
      sign(i, j) * (|x_i|^2 + |x_j|^2 - 2 <x_i, x_j>)        or 0 outside the index range,
  from the same operations in the same order, with the same constant words. They differ only in how the sum over
  the pairs is grouped: the kernel adds, for each row, four partial sums of 1024 columns each, one per grid point,
  into an accumulator that starts at zero, and then adds the 4096 row sums; the reference adds all 4096 x 4096 terms
  at once. Addition on the extended reals is commutative and associative everywhere, infinities included, so the two
  groupings agree without any appeal to the inputs being finite; and the final products total * 2^-13 and
  2^-13 * total agree by commutativity of multiplication. The change of the matrix to a narrower float format before
  the kernel's matrix product is the identity on the extended reals.

  The frames: each program runs to the end from any memory and leaves its two argument arrays as launched. For the
  kernel program this is the run of its three stretches in order (host operations, the kernel call, host operations);
  for the reference it is its run as a sequence of host operations. The idealized kernel is the word-level kernel's
  own text read over the extended reals: no operation was rewritten, so nothing is owed for that conjunct.
-/
import proofs.«109835_j10763188043951_2_alg».proof.Defs
import proofs.«109835_j10763188043951_2_alg».proof.Proof.Gen.Kernel
import proofs.«109835_j10763188043951_2_alg».proof.Proof.Gen.KernelIdeal
import proofs.«109835_j10763188043951_2_alg».proof.Proof.Gen.ReferenceIdeal
import proofs.«109835_j10763188043951_2_alg».proof.Proof.Gen.Pre_finite_inputs
import proofs.«109835_j10763188043951_2_alg».proof.Proof.Gen.ReferenceIdeal.Run
import proofs.«109835_j10763188043951_2_alg».proof.Proof.Gen.ReferenceIdeal.Read
import proofs.«109835_j10763188043951_2_alg».proof.Proof.KBRun
import proofs.«109835_j10763188043951_2_alg».proof.Proof.KIRun
import proofs.«109835_j10763188043951_2_alg».proof.Proof.KIValue
import proofs.«109835_j10763188043951_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ =>
  (θ_run Cert.Kernel.defs _ _).mono (fun _ h c => ⟨(h c).2.1, (h c).2.2⟩) (Cert.Kernel.Hand.run_main (F := Bits) m ρ)

/-- So does the kernel program read over the extended reals. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- The reference is a sequence of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- Both programs end with the specification's result of the (agreeing) arguments. -/
theorem algebraic : Cert.algebraic_KernelIdeal_ReferenceIdeal := by
  intro m ρ m' ρ' _ hagree
  refine ⟨fun c => fun _ => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (funext fun j => Cert.KernelIdeal.Hand.result_eq m ρ c j), (h c).2.1, (h c).2.2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, (hagree c).1, (hagree c).2]
    exact funext fun j => Cert.RefValue.ref_is_spec _ _ j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
